-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x4096 .f32) (main_arg1 : FVec F S4096x512 .f32) (main_arg2 : FVec F S512 .f32) (main_arg3 : FVec F S512x64 .f32) (main_arg4 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S64x512 : Shape := ⟨2, ![64, 512]⟩
abbrev S1x64 : Shape := ⟨2, ![1, 64]⟩
abbrev S64x32768 : Shape := ⟨2, ![64, 32768]⟩
abbrev S512x4096 : Shape := ⟨2, ![512, 4096]⟩
abbrev S64x1024 : Shape := ⟨2, ![64, 1024]⟩
abbrev S512x512 : Shape := ⟨2, ![512, 512]⟩
abbrev S32768x64 : Shape := ⟨2, ![32768, 64]⟩

abbrev nBuf : Space → Nat
  | .hbm => 10
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S4096x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S1x512, .f32⟩
  | .hbm, ⟨6, _⟩ => ⟨S64x512, .f32⟩
  | .hbm, ⟨7, _⟩ => ⟨S1x64, .f32⟩
  | .hbm, ⟨8, _⟩ => ⟨S64x32768, .f32⟩
  | .hbm, ⟨9, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x512, .f32⟩
  | .local _ .vmem, ⟨5, _⟩ => ⟨S1x512, .f32⟩
  | .local _ .vmem, ⟨6, _⟩ => ⟨S64x512, .f32⟩
  | .local _ .vmem, ⟨7, _⟩ => ⟨S1x64, .f32⟩
  | .local _ .vmem, ⟨8, _⟩ => ⟨S64x1024, .f32⟩
  | .local _ .vmem, ⟨9, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  transposes_S512x64_S64x512_1_0 : S512x64.Transposes [1, 0] S64x512
  shapeCasts_S64_S1x64 : S64.ShapeCasts S1x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  transposes_S64x512_p1_0_S512x64 : S64x512.Transposes [1, 0] S512x64
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  transposes_S512x64_p1_0_S64x512 : S512x64.Transposes [1, 0] S64x512
  inb_S64x1024_S64x512_0_0 : ∀ a, (![0, 0] : Fin 2 → Nat) a + S64x512.size a ≤ S64x1024.size a
  inb_S64x1024_S64x512_0_512 : ∀ a, (![0, 512] : Fin 2 → Nat) a + S64x512.size a ≤ S64x1024.size a
  transposes_S64x32768_S32768x64_1_0 : S64x32768.Transposes [1, 0] S32768x64
  dot_S512x4096_S4096x512_S512x512_1_0_0_1_n_n_wf : DotDims.WF S512x4096 S4096x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .f32 = 32 ∨ (Rect.block (s := S4096x512) S4096x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .f32 = 32 ∨ (Rect.block (s := S64x512) S64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x32768.size a
  hwx0_6 : ∀ i : grid0.Coords, EltTy.bits .f32 = 32 ∨ (Rect.block (s := S64x32768) S64x1024.size (cc0_transform_6 i) (hinb0_6 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S32768x512 : Shape := ⟨2, ![32768, 512]⟩
abbrev S1x512 : Shape := ⟨2, ![1, 512]⟩
abbrev S_ : Shape := ⟨0, ![]⟩
abbrev S32768x64 : Shape := ⟨2, ![32768, 64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S32768x512, .f32⟩
  | .hbm, ⟨6, _⟩ => ⟨S1x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x64, .f32⟩
  | .hbm, ⟨13, _⟩ => ⟨S1x64, .f32⟩
  | .hbm, ⟨14, _⟩ => ⟨S32768x64, .f32⟩
  | .hbm, ⟨15, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x512_S32768x512_1_0_0_1_n_n_wf : DotDims.WF S32768x4096 S4096x512 S32768x512 [1] [0] [0] [1] [] []
  dot_S32768x512_S512x64_S32768x64_1_0_0_1_n_n_wf : DotDims.WF S32768x512 S512x64 S32768x64 [1] [0] [0] [1] [] []

variable [Facts₀]

def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf
def dot_S32768x512_S512x64_S32768x64_1_0_0_1_n_n : DotDims S32768x512 S512x64 S32768x64 where
  lhsContracting := [1]
  rhsContracting := [0]
  lhsNonContracting := [0]
  rhsNonContracting := [1]
  lhsBatch := []
  rhsBatch := []
  wf := dot_S32768x512_S512x64_S32768x64_1_0_0_1_n_n_wf

class Facts : Prop extends Facts₀ where

variable [Facts]
-- ==== Proof.BitsBody.lean ====
/-
  The kernel's body at one grid point, read as a function of what its seven staging buffers hold.

  At a grid point the body reads a block of 512 token rows from each of its two token windows, the resident
  weights and biases, and fills the left and the right half of its 64 × 1024 output buffer, each half by one
  store. What the output buffer holds afterwards is therefore the second store laid over the first: a closed
  function (`tile`) of the six input blocks, whatever the buffer held before. The two loads of the output buffer
  that precede the stores read values nothing uses.
-/
import proofs.«155692_g8263517077508_cont_9to1_m_1080_12_alg».proof.Proof.Gen.Kernel.Launch
import proofs.«155692_g8263517077508_cont_9to1_m_1080_12_alg».proof.Proof.Gen.Kernel.Skeleton
import proofs.«155692_g8263517077508_cont_9to1_m_1080_12_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- A whole block of token rows. -/
abbrev rX : Rect S512x4096 := Rect.unit (s := S512x4096) ![0, 0] S512x4096.size inb_S512x4096_S512x4096_0_0
/-- The whole first weight matrix. -/
abbrev rW1 : Rect S4096x512 := Rect.unit (s := S4096x512) ![0, 0] S4096x512.size inb_S4096x512_S4096x512_0_0
/-- The whole first bias row. -/
abbrev rB1 : Rect S1x512 := Rect.unit (s := S1x512) ![0, 0] S1x512.size inb_S1x512_S1x512_0_0
/-- The whole transposed second weight matrix. -/
abbrev rW2 : Rect S64x512 := Rect.unit (s := S64x512) ![0, 0] S64x512.size inb_S64x512_S64x512_0_0
/-- The whole second bias row. -/
abbrev rB2 : Rect S1x64 := Rect.unit (s := S1x64) ![0, 0] S1x64.size inb_S1x64_S1x64_0_0
/-- The left half of the output buffer: columns 0 … 511. -/
abbrev rL : Rect S64x1024 := Rect.unit (s := S64x1024) ![0, 0] S64x512.size inb_S64x1024_S64x512_0_0
/-- The right half of the output buffer: columns 512 … 1023. -/
abbrev rR : Rect S64x1024 := Rect.unit (s := S64x1024) ![0, 512] S64x512.size inb_S64x1024_S64x512_0_512

/-! ## What the body leaves in the output buffer -/

/-- The output buffer after the body, from the six input blocks: the store into the right half (the second
    block of tokens) laid over the store into the left half (the first block). -/
def tile (xa xb : Vec F S512x4096 .f32) (w1 : Vec F S4096x512 .f32) (b1 : Vec F S1x512 .f32) (w2t : Vec F S64x512 .f32)
    (b2 : Vec F S1x64 .f32) : Vec F S64x1024 .f32 :=
  View.canon [⟨rR, k0_pay1 (k0_pay4 (View.ld w2t rW2) (View.ld xb rX) (View.ld w1 rW1) (View.ld b1 rB1)) (k0_pay5 (View.ld b2 rB2))⟩,
    ⟨rL, k0_pay3 (View.ld w2t rW2) (View.ld xa rX) (View.ld w1 rW1) (View.ld b1 rB1) (View.ld b2 rB2)⟩]

/-- The two halves tile the buffer, so the two stores cover it. -/
theorem cover (pR pL : Vec F S64x512 .f32) (y : S64x1024.Idx) :
    ∃ pc ∈ ([⟨rR, pR⟩, ⟨rL, pL⟩] : List (View.Piece (Elt F) S64x1024 .f32)), y ∈ pc.1.set :=
  View.cover_of_tiled [⟨rR, pR⟩, ⟨rL, pL⟩] S64x512.size (by rfl) y

/-! ## The body's triple -/

set_option maxHeartbeats 2000000 in
/-- On whole staging buffers, the six inputs' at contents `xa … b2` and the output's at anything, the body runs to
    the continuation holding the inputs' as they were and the output's at `tile` of them. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x512 .f32) (harg3 : arg3.IsWhole) (arg4 : Memref sig .tc .vmem S1x512 .f32) (harg4 : arg4.IsWhole)
    (arg5 : Memref sig .tc .vmem S64x512 .f32) (harg5 : arg5.IsWhole) (arg6 : Memref sig .tc .vmem S1x64 .f32) (harg6 : arg6.IsWhole)
    (arg7 : Memref sig .tc .vmem S64x1024 .f32) (harg7 : arg7.IsWhole)
    (xa xb : Vec F S512x4096 .f32) (w1 : Vec F S4096x512 .f32) (b1 : Vec F S1x512 .f32) (w2t : Vec F S64x512 .f32) (b2 : Vec F S1x64 .f32)
    (K : PUnit → sProp 𝕄) :
    iprop(owns (c : Thread nD τ) arg1 fullShare xa ∗ owns (c : Thread nD τ) arg2 fullShare xb ∗ owns (c : Thread nD τ) arg3 fullShare w1
        ∗ owns (c : Thread nD τ) arg4 fullShare b1 ∗ owns (c : Thread nD τ) arg5 fullShare w2t ∗ owns (c : Thread nD τ) arg6 fullShare b2
        ∗ (∃ d, owns (c : Thread nD τ) arg7 fullShare d)
        ∗ (iprop(owns (c : Thread nD τ) arg1 fullShare xa ∗ owns (c : Thread nD τ) arg2 fullShare xb ∗ owns (c : Thread nD τ) arg3 fullShare w1
            ∗ owns (c : Thread nD τ) arg4 fullShare b1 ∗ owns (c : Thread nD τ) arg5 fullShare w2t ∗ owns (c : Thread nD τ) arg6 fullShare b2
            ∗ owns (c : Thread nD τ) arg7 fullShare (tile xa xb w1 b1 w2t b2)) -∗ K ⟨⟩))
      ⊢ wp frame (wpE (defs₀ (F := F)) Variants.none c none) E
          (cc0__fused_router_kernel i arg1 harg1 arg2 harg2 arg3 harg3 arg4 harg4 arg5 harg5 arg6 harg6 arg7 harg7) K := by
  simp only [cc0__fused_router_kernel_eq_skeleton]; unfold cc0__fused_router_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _)

end Cert.Kernel.Body

end
-- ==== Proof.BitsRegion.lean ====
/-
  The pipeline's proof data for the kernel's one region, and the body obligation at every grid point.

  The host lines before the region only re-lay three of the arguments (the two bias vectors as one-row matrices,
  the second weight matrix transposed), so the region finds every argument array as launched. Both token
  windows read the SAME array, the tokens: the array is held half and half by the two windows, which is enough
  since neither writes it. At grid point `t` window 0 holds token rows `1024 t … 1024 t + 511`, window 1 the
  next 512, the four weight windows the whole of their arrays at every point (fetched once, left in place by
  the body), and the output window is written back at every point with what the body left (`Body.tile`).
-/
import proofs.«155692_g8263517077508_cont_9to1_m_1080_12_alg».proof.Proof.BitsBody

set_option maxRecDepth 16384

noncomputable section

namespace Cert.Kernel.Region

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three host lines, the region, and the closing transposition: it reduces to the region
    continued by that last line, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes an argument: each is found as launched. -/
theorem V_arg (c : Dev nD) (b : Ref sig .tc) (hb : b ≠ main_v0 ∧ b ≠ main_v1 ∧ b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body each input's buffer still at its block and the
    output's at `tile` of the six blocks; the invariant the scoped buffers the pipeline does not stage (there is
    none); the token array held half by each token window, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = tile (iblk m c 0 t) (iblk m c 1 t) (iblk m c 2 t) (iblk m c 3 t) (iblk m c 4 t) (iblk m c 5 t) := by
  dsimp only [dats]

/-- Each input's current staging buffer holds its block at every point, fetched there or not: an unfetched window's
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: every input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.BitsRun.lean ====
/-
  The launch: the whole program's run from the body obligation.

  The program is three host lines, the kernel region, and one closing host line (the transposition of the region's
  result). The region's two token windows read one array, so on entry the array's ownership is split in two halves,
  one per window, and nothing else about the entry differs from a region whose windows read distinct arrays. At the
  region's exit the closing line runs holding the region's result (the output window's array, whole) and its own
  result buffer; every other buffer is only carried along. The run concludes: the output window's array holds what
  the write-backs of all grid points left, the program's result is the closing line's value of it, and every
  argument array is as launched.
-/
import proofs.«155692_g8263517077508_cont_9to1_m_1080_12_alg».proof.Proof.BitsRegion

set_option maxRecDepth 16384

noncomputable section

namespace Cert.Kernel.Run

open Cert.Kernel Cert.Kernel.Gen Cert.Kernel.Body Cert.Kernel.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The pipeline's arrays at contents `Fv`: the token array half by window 0 and half by window 1, each other array
    whole. -/
theorem arrays_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare} Fv 2) ∗ (((c : Thread nD τ).loc main_v0) ↦{fullShare} Fv 3)
          ∗ (((c : Thread nD τ).loc main_v1) ↦{fullShare} Fv 4) ∗ (((c : Thread nD τ).loc main_v2) ↦{fullShare} Fv 5)
          ∗ (((c : Thread nD τ).loc main_v3) ↦{fullShare} Fv 6)) := by
  unfold Dat.arrays
  rw [show (bigSep Finset.univ fun w : Fin cfg0.W => ((cfg0.win w).arr.view.loc (c : Thread nD τ) ↦[(cfg0.win w).arr.view.set]{(dats m 0 c).share w} Fv w : sProp 𝕄))
        = bigSep Finset.univ fun w : Fin 7 => ((((c : Thread nD τ).loc (Pipeline.arrRef spec0 w)) ↦{(dats m 0 c).share w} Fv w : sProp 𝕄))
      from bigSep_congr fun w _ => by rw [(arr_whole0 w).set_eq_univ], bigSep_W0]
  rfl

/-- The distinct buffers behind the windows' arrays, each whole. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0) ∗ (((c : Thread nD τ).loc main_v1) ↦{fullShare} Vv main_v1)
          ∗ (((c : Thread nD τ).loc main_v2) ↦{fullShare} Vv main_v2) ∗ (((c : Thread nD τ).loc main_v3) ↦{fullShare} Vv main_v3)) := by
  unfold Pipeline.arrBufs
  exact bigSep_eq_bigSepL_of_eq [main_arg0, main_arg1, main_v0, main_v1, main_v2, main_v3] (by decide) (by decide) _

/-- On entry the token array's ownership is split between the two token windows. -/
theorem entry_split (c : Dev nD) :
    (Pipeline.arrBufs spec0 c (V m c) : sProp 𝕄) ⊢ (dats m 0 c).arrays ((dats m 0 c).arrAt · 0) := by
  rw [arrBufs_eq, arrays_eq]
  iintro ⟨H0, H1, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The closing line -/

/-- The two buffers the closing line touches: the region's result and the program's. -/
def S34 : Finset (DevRef τ sig) := {Proc.devRef .tc main_v3, Proc.devRef .tc main_v4}

open Classical in
/-- Core `c`'s buffer contents at the region's exit: as on entry, but for the region's result, which holds what the
    write-backs of all grid points left. -/
def Wx (c : Dev nD) : Valuation τ sig (Elt F) :=
  Function.update (V0 m c) (Proc.devRef .tc main_v3) ((dats m 0 c).arrAt 6 cfg0.N)

/-- and after the closing line. -/
def Wend (c : Dev nD) : Valuation τ sig (Elt F) := StableHlo.after (List.flatten [hostOps1]) (Wx m c)

theorem Wx_v3 (c : Dev nD) : Wx m c (Proc.devRef .tc main_v3) = (dats m 0 c).arrAt 6 cfg0.N := by
  unfold Wx; exact Function.update_self ..

theorem Wx_ne (c : Dev nD) (b : Ref sig .tc) (hb : b ≠ main_v3) : Wx m c (Proc.devRef .tc b) = V m c b := by
  unfold Wx; exact Function.update_of_ne (StableHlo.devRef_ne_of_ne hb) ..

/-- The closing line writes the program's result only. -/
theorem Wend_keep (c : Dev nD) (b : Ref sig .tc) (hb : b ≠ main_v4) : Wend m c (Proc.devRef .tc b) = Wx m c (Proc.devRef .tc b) :=
  StableHlo.after_of_forall_not_mem (b := Proc.devRef .tc b) _ _ (List.forall_iff_forall_mem.mp (by
    simp only [hostOps1, List.flatten_cons, List.flatten_nil, List.append_nil, List.Forall, StableHlo.unary_writes, Finset.mem_singleton]
    exact StableHlo.devRef_ne_of_ne hb))

theorem held_S34 (c : Dev nD) (W : Valuation τ sig (Elt F)) :
    (StableHlo.held (c.tc : Thread nD τ) S34 W : sProp 𝕄)
      = iprop((((c.tc : Thread nD τ).1, Proc.devRef .tc main_v3) ↦{fullShare} W (Proc.devRef .tc main_v3))
          ∗ (((c.tc : Thread nD τ).1, Proc.devRef .tc main_v4) ↦{fullShare} W (Proc.devRef .tc main_v4))) := by
  unfold StableHlo.held S34
  rw [bigSep_insert (by
    rw [Finset.mem_singleton]; exact StableHlo.devRef_ne_of_ne (by decide)), bigSep_singleton]
  rfl

/-- What bypasses the region on entry (the three arguments no window stages and the program's result buffer), -/
def Zin (c : Dev nD) : sProp 𝕄 :=
  Pipeline.unscopedRestP (Ix := Unit) (Name := ℕ) (U := UR sig nD τ) (Lvl := ℕ) Pipeline.Prefetch.none spec0 c (V m c)
/-- and after the closing line. -/
def Zend (c : Dev nD) : sProp 𝕄 :=
  Pipeline.unscopedRestP (Ix := Unit) (Name := ℕ) (U := UR sig nD τ) (Lvl := ℕ) Pipeline.Prefetch.none spec0 c (fun b => Wend m c (Proc.devRef .tc b))

set_option backward.isDefEq.respectTransparency.types false in
/-- From the region's exit the closing line runs holding the region's result and its own result buffer, and hands
    back the pipeline's arrays as they were and the bypassing buffers at the contents after it. -/
theorem tail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  unfold Zend Zin
  rw [Pipeline.unscopedRestP_none, Pipeline.unscopedRestP_none, unscopedRest0_eq, unscopedRest0_eq, arrays_eq,
    Wend_keep m c main_arg2 (by decide), Wend_keep m c main_arg3 (by decide), Wend_keep m c main_arg4 (by decide),
    Wx_ne m c main_arg2 (by decide), Wx_ne m c main_arg3 (by decide), Wx_ne m c main_arg4 (by decide)]
  have hS : ∀ ops ∈ ([hostOps1] : List (List (HloOp τ sig (Elt F)))), ∀ op ∈ ops, op.bufs ⊆ S34 := by
    intro ops hops op hop
    simp only [List.mem_cons, List.mem_nil_iff, or_false] at hops
    subst hops
    simp only [hostOps1, List.mem_cons, List.mem_nil_iff, or_false] at hop
    subst hop
    rw [StableHlo.unary_bufs]; exact subset_refl _
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hstep := Pipeline.wp_seqs_then (Ix := Unit) (Name := ℕ) (U := UR sig nD τ) (Lvl := ℕ) (pcfgs (F := F)) defs₀ Variants.none c S34 [] [hostOps1] hS hf (Wx m c) (K := Q')
  rw [held_S34, held_S34, Wx_v3, Wx_ne m c main_v4 (by decide)] at hstep
  rw [show (StableHlo.after ([hostOps1] : List (List (HloOp τ sig (Elt F)))).flatten (Wx m c)) = Wend m c from rfl,
    Wend_keep m c main_v3 (by decide), Wx_v3] at hstep
  iintro ⟨Hk, Hb, ⟨A0, A1, A2, A3, A4, A5, A6⟩, ⟨Z2, Z3, Z4, Z9⟩⟩
  ihave Hw := (hstep) $$ [Hb A6 Z9]
  · isplitl [Hb]; · iexact Hb
    isplitl [A6]; · iexact A6
    iexact Z9
  iapply Hw
  iintro ⟨Hb, H3, H4⟩
  rw [Pipeline.chain_nil, wp_pure]
  imodintro
  iapply Hk
  isplitl [A0 A1 A2 A3 A4 A5 H3]
  · isplitl [A0]; · iexact A0
    isplitl [A1]; · iexact A1
    isplitl [A2]; · iexact A2
    isplitl [A3]; · iexact A3
    isplitl [A4]; · iexact A4
    isplitl [A5]; · iexact A5
    iexact H3
  isplitl [Z2]; · iexact Z2
  isplitl [Z3]; · iexact Z3
  isplitl [Z4]; · iexact Z4
  iexact H4

/-! ## The region's ends -/

/-- The pipeline's windows, as the launch spells them, are the program's. -/
theorem spec_eq : (Pipeline.pin (fun p => (cfgs p).toPCfg (Val := Elt F)) (fun p => (cfgs p).toPCfg_adm) (0 : Fin 1)).spec = spec0 := rfl

/-- The invariant is the same at every point: the scoped buffers the pipeline does not stage. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Nothing that bypasses the region is handed to the body. -/
theorem entry_rest (c : Dev nD) :
    (Pipeline.unscopedRestP (Ix := Unit) (Name := ℕ) (U := UR sig nD τ) (Lvl := ℕ) ((cfgs 0).toPCfg (Val := Elt F)).pre
        (Pipeline.pin (fun p => (cfgs p).toPCfg (Val := Elt F)) (fun p => (cfgs p).toPCfg_adm) (0 : Fin 1)).spec c (V m c) : sProp 𝕄)
      ⊢ iprop(emp ∗ Zin m c) := by
  rw [spec_eq]
  unfold Zin
  iintro H
  isplitr; · iempintro
  iexact H

/-- The invariant at the first point is what the launch hands over; -/
theorem entry_inv (c : Dev nD) :
    iprop((emp : sProp 𝕄) ∗ Pipeline.prefHeld (Ix := Unit) (Name := ℕ) (U := UR sig nD τ) (Lvl := ℕ) ((cfgs 0).toPCfg (Val := Elt F)).pre c (fun _ => fullShare.right) ((cfgs 0).toPCfg_adm (Val := Elt F)).1
        ∗ Pipeline.scopedRest (Ix := Unit) (Name := ℕ) (U := UR sig nD τ) (Lvl := ℕ) (Val := Elt F) (Pipeline.pin (fun p => (cfgs p).toPCfg (Val := Elt F)) (fun p => (cfgs p).toPCfg_adm) (0 : Fin 1)).spec c)
      ⊢ (dats m 0 c).Φ 0 := by
  rw [spec_eq, Phi_eq]
  iintro ⟨-, -, Hr⟩
  iexact Hr

/-- and after the last point it is handed back. -/
theorem exit_inv (c : Dev nD) :
    (dats m 0 c).Φ (Fin.last (Pipeline.pin (fun p => (cfgs p).toPCfg (Val := Elt F)) (fun p => (cfgs p).toPCfg_adm) (0 : Fin 1)).N)
      ⊢ iprop((emp : sProp 𝕄) ∗ Pipeline.scopedRest (Ix := Unit) (Name := ℕ) (U := UR sig nD τ) (Lvl := ℕ) (Val := Elt F) (Pipeline.pin (fun p => (cfgs p).toPCfg (Val := Elt F)) (fun p => (cfgs p).toPCfg_adm) (0 : Fin 1)).spec c) := by
  rw [spec_eq, Phi_eq]
  iintro Hr
  isplitr; · iempintro
  iexact Hr

/-! ## The run -/

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- What the run concludes on every core: the program's result is the closing line's value of what the write-backs
    left in the region's result, and every argument array is as launched. -/
def Post (r : PUnit × MemSt nD τ sig (Elt F)) : Prop :=
  ∀ c : Dev nD,
    r.2.mem ((c.tc : Thread nD τ).loc main_v4) = Wend m c (Proc.devRef .tc main_v4)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

set_option backward.isDefEq.respectTransparency.types false in
/-- From any memory with zero counters every weakly fair execution of the program terminates, nothing faulting, in
    a state satisfying `Post`. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main
    (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl
    (V m) (hmain m Variants.none) (entry_split m) (fun _ k => k.elim0)
    (fun _ => iprop(emp)) (fun _ => iprop(emp)) (Zin m) (Zend m)
    (entry_rest m) (entry_inv m) (exit_inv m)
    (tail m)
    (fun c s => ∀ b ∈ Pipeline.restRefsP sig Pipeline.Prefetch.none spec0, s.mem ((c.tc : Thread nD τ).loc b) = Wend m c (Proc.devRef .tc b))
    (fun c s' => by
      unfold Zend Pipeline.unscopedRestP
      iintro ⟨-, HU, HSI⟩
      imodintro
      iapply (pointsTo_read_all (Pipeline.restRefsP sig Pipeline.Prefetch.none spec0) (fun b => (c.tc : Thread nD τ).loc b) (fun b => Wend m c (Proc.devRef .tc b)) s')
      isplitl [HU] <;> iassumption)
    (fun s h c => by
      obtain ⟨ha, -, hr⟩ := h c
      refine ⟨hr main_v4 (mem_rest main_v4 (by decide) (by decide)), ?_, ?_, ?_, ?_, ?_⟩
      · exact (ha 0).trans (((dats m 0 c).arrAt_in 0 rfl _).trans ((A_eq m c 0).trans (V_arg m c main_arg0 (by decide))))
      · exact (ha 2).trans (((dats m 0 c).arrAt_in 2 rfl _).trans ((A_eq m c 2).trans (V_arg m c main_arg1 (by decide))))
      · exact (hr main_arg2 (mem_rest main_arg2 (by decide) (by decide))).trans
          ((Wend_keep m c main_arg2 (by decide)).trans ((Wx_ne m c main_arg2 (by decide)).trans (V_arg m c main_arg2 (by decide))))
      · exact (hr main_arg3 (mem_rest main_arg3 (by decide) (by decide))).trans
          ((Wend_keep m c main_arg3 (by decide)).trans ((Wx_ne m c main_arg3 (by decide)).trans (V_arg m c main_arg3 (by decide))))
      · exact (hr main_arg4 (mem_rest main_arg4 (by decide) (by decide))).trans
          ((Wend_keep m c main_arg4 (by decide)).trans ((Wx_ne m c main_arg4 (by decide)).trans (V_arg m c main_arg4 (by decide)))))

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Run

end
-- ==== Proof.IdealBody.lean ====
/-
  The kernel's body at one grid point, read as a function of what its seven staging buffers hold.

  At a grid point the body reads a block of 512 token rows from each of its two token windows, the resident
  weights and biases, and fills the left and the right half of its 64 × 1024 output buffer, each half by one
  store. What the output buffer holds afterwards is therefore the second store laid over the first: a closed
  function (`tile`) of the six input blocks, whatever the buffer held before. The two loads of the output buffer
  that precede the stores read values nothing uses.
-/
import proofs.«155692_g8263517077508_cont_9to1_m_1080_12_alg».proof.Proof.Gen.KernelIdeal.Launch
import proofs.«155692_g8263517077508_cont_9to1_m_1080_12_alg».proof.Proof.Gen.KernelIdeal.Skeleton
import proofs.«155692_g8263517077508_cont_9to1_m_1080_12_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- A whole block of token rows. -/
abbrev rX : Rect S512x4096 := Rect.unit (s := S512x4096) ![0, 0] S512x4096.size inb_S512x4096_S512x4096_0_0
/-- The whole first weight matrix. -/
abbrev rW1 : Rect S4096x512 := Rect.unit (s := S4096x512) ![0, 0] S4096x512.size inb_S4096x512_S4096x512_0_0
/-- The whole first bias row. -/
abbrev rB1 : Rect S1x512 := Rect.unit (s := S1x512) ![0, 0] S1x512.size inb_S1x512_S1x512_0_0
/-- The whole transposed second weight matrix. -/
abbrev rW2 : Rect S64x512 := Rect.unit (s := S64x512) ![0, 0] S64x512.size inb_S64x512_S64x512_0_0
/-- The whole second bias row. -/
abbrev rB2 : Rect S1x64 := Rect.unit (s := S1x64) ![0, 0] S1x64.size inb_S1x64_S1x64_0_0
/-- The left half of the output buffer: columns 0 … 511. -/
abbrev rL : Rect S64x1024 := Rect.unit (s := S64x1024) ![0, 0] S64x512.size inb_S64x1024_S64x512_0_0
/-- The right half of the output buffer: columns 512 … 1023. -/
abbrev rR : Rect S64x1024 := Rect.unit (s := S64x1024) ![0, 512] S64x512.size inb_S64x1024_S64x512_0_512

/-! ## What the body leaves in the output buffer -/

/-- The output buffer after the body, from the six input blocks: the store into the right half (the second
    block of tokens) laid over the store into the left half (the first block). -/
def tile (xa xb : Vec F S512x4096 .f32) (w1 : Vec F S4096x512 .f32) (b1 : Vec F S1x512 .f32) (w2t : Vec F S64x512 .f32)
    (b2 : Vec F S1x64 .f32) : Vec F S64x1024 .f32 :=
  View.canon [⟨rR, k0_pay1 (k0_pay4 (View.ld w2t rW2) (View.ld xb rX) (View.ld w1 rW1) (View.ld b1 rB1)) (k0_pay5 (View.ld b2 rB2))⟩,
    ⟨rL, k0_pay3 (View.ld w2t rW2) (View.ld xa rX) (View.ld w1 rW1) (View.ld b1 rB1) (View.ld b2 rB2)⟩]

/-- The two halves tile the buffer, so the two stores cover it. -/
theorem cover (pR pL : Vec F S64x512 .f32) (y : S64x1024.Idx) :
    ∃ pc ∈ ([⟨rR, pR⟩, ⟨rL, pL⟩] : List (View.Piece (Elt F) S64x1024 .f32)), y ∈ pc.1.set :=
  View.cover_of_tiled [⟨rR, pR⟩, ⟨rL, pL⟩] S64x512.size (by rfl) y

/-! ## The body's triple -/

set_option maxHeartbeats 2000000 in
/-- On whole staging buffers, the six inputs' at contents `xa … b2` and the output's at anything, the body runs to
    the continuation holding the inputs' as they were and the output's at `tile` of them. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x512 .f32) (harg3 : arg3.IsWhole) (arg4 : Memref sig .tc .vmem S1x512 .f32) (harg4 : arg4.IsWhole)
    (arg5 : Memref sig .tc .vmem S64x512 .f32) (harg5 : arg5.IsWhole) (arg6 : Memref sig .tc .vmem S1x64 .f32) (harg6 : arg6.IsWhole)
    (arg7 : Memref sig .tc .vmem S64x1024 .f32) (harg7 : arg7.IsWhole)
    (xa xb : Vec F S512x4096 .f32) (w1 : Vec F S4096x512 .f32) (b1 : Vec F S1x512 .f32) (w2t : Vec F S64x512 .f32) (b2 : Vec F S1x64 .f32)
    (K : PUnit → sProp 𝕄) :
    iprop(owns (c : Thread nD τ) arg1 fullShare xa ∗ owns (c : Thread nD τ) arg2 fullShare xb ∗ owns (c : Thread nD τ) arg3 fullShare w1
        ∗ owns (c : Thread nD τ) arg4 fullShare b1 ∗ owns (c : Thread nD τ) arg5 fullShare w2t ∗ owns (c : Thread nD τ) arg6 fullShare b2
        ∗ (∃ d, owns (c : Thread nD τ) arg7 fullShare d)
        ∗ (iprop(owns (c : Thread nD τ) arg1 fullShare xa ∗ owns (c : Thread nD τ) arg2 fullShare xb ∗ owns (c : Thread nD τ) arg3 fullShare w1
            ∗ owns (c : Thread nD τ) arg4 fullShare b1 ∗ owns (c : Thread nD τ) arg5 fullShare w2t ∗ owns (c : Thread nD τ) arg6 fullShare b2
            ∗ owns (c : Thread nD τ) arg7 fullShare (tile xa xb w1 b1 w2t b2)) -∗ K ⟨⟩))
      ⊢ wp frame (wpE (defs₀ (F := F)) Variants.none c none) E
          (cc0__fused_router_kernel i arg1 harg1 arg2 harg2 arg3 harg3 arg4 harg4 arg5 harg5 arg6 harg6 arg7 harg7) K := by
  simp only [cc0__fused_router_kernel_eq_skeleton]; unfold cc0__fused_router_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _)

end Cert.KernelIdeal.Body

end
-- ==== Proof.IdealRegion.lean ====
/-
  The pipeline's proof data for the kernel's one region, and the body obligation at every grid point.

  The host lines before the region only re-lay three of the arguments (the two bias vectors as one-row matrices,
  the second weight matrix transposed), so the region finds every argument array as launched. Both token
  windows read the SAME array, the tokens: the array is held half and half by the two windows, which is enough
  since neither writes it. At grid point `t` window 0 holds token rows `1024 t … 1024 t + 511`, window 1 the
  next 512, the four weight windows the whole of their arrays at every point (fetched once, left in place by
  the body), and the output window is written back at every point with what the body left (`Body.tile`).
-/
import proofs.«155692_g8263517077508_cont_9to1_m_1080_12_alg».proof.Proof.IdealBody

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the three host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the three host lines, the region, and the closing transposition: it reduces to the region
    continued by that last line, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes an argument: each is found as launched. -/
theorem V_arg (c : Dev nD) (b : Ref sig .tc) (hb : b ≠ main_v0 ∧ b ≠ main_v1 ∧ b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body each input's buffer still at its block and the
    output's at `tile` of the six blocks; the invariant the scoped buffers the pipeline does not stage (there is
    none); the token array held half by each token window, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = tile (iblk m c 0 t) (iblk m c 1 t) (iblk m c 2 t) (iblk m c 3 t) (iblk m c 4 t) (iblk m c 5 t) := by
  dsimp only [dats]

/-- Each input's current staging buffer holds its block at every point, fetched there or not: an unfetched window's
    block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: every input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.IdealRun.lean ====
/-
  The launch: the whole program's run from the body obligation.

  The program is three host lines, the kernel region, and one closing host line (the transposition of the region's
  result). The region's two token windows read one array, so on entry the array's ownership is split in two halves,
  one per window, and nothing else about the entry differs from a region whose windows read distinct arrays. At the
  region's exit the closing line runs holding the region's result (the output window's array, whole) and its own
  result buffer; every other buffer is only carried along. The run concludes: the output window's array holds what
  the write-backs of all grid points left, the program's result is the closing line's value of it, and every
  argument array is as launched.
-/
import proofs.«155692_g8263517077508_cont_9to1_m_1080_12_alg».proof.Proof.IdealRegion

set_option maxRecDepth 16384

noncomputable section

namespace Cert.KernelIdeal.Run

open Cert.KernelIdeal Cert.KernelIdeal.Gen Cert.KernelIdeal.Body Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The pipeline's arrays at contents `Fv`: the token array half by window 0 and half by window 1, each other array
    whole. -/
theorem arrays_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_arg1) ↦{fullShare} Fv 2) ∗ (((c : Thread nD τ).loc main_v0) ↦{fullShare} Fv 3)
          ∗ (((c : Thread nD τ).loc main_v1) ↦{fullShare} Fv 4) ∗ (((c : Thread nD τ).loc main_v2) ↦{fullShare} Fv 5)
          ∗ (((c : Thread nD τ).loc main_v3) ↦{fullShare} Fv 6)) := by
  unfold Dat.arrays
  rw [show (bigSep Finset.univ fun w : Fin cfg0.W => ((cfg0.win w).arr.view.loc (c : Thread nD τ) ↦[(cfg0.win w).arr.view.set]{(dats m 0 c).share w} Fv w : sProp 𝕄))
        = bigSep Finset.univ fun w : Fin 7 => ((((c : Thread nD τ).loc (Pipeline.arrRef spec0 w)) ↦{(dats m 0 c).share w} Fv w : sProp 𝕄))
      from bigSep_congr fun w _ => by rw [(arr_whole0 w).set_eq_univ], bigSep_W0]
  rfl

/-- The distinct buffers behind the windows' arrays, each whole. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0) ∗ (((c : Thread nD τ).loc main_v1) ↦{fullShare} Vv main_v1)
          ∗ (((c : Thread nD τ).loc main_v2) ↦{fullShare} Vv main_v2) ∗ (((c : Thread nD τ).loc main_v3) ↦{fullShare} Vv main_v3)) := by
  unfold Pipeline.arrBufs
  exact bigSep_eq_bigSepL_of_eq [main_arg0, main_arg1, main_v0, main_v1, main_v2, main_v3] (by decide) (by decide) _

/-- On entry the token array's ownership is split between the two token windows. -/
theorem entry_split (c : Dev nD) :
    (Pipeline.arrBufs spec0 c (V m c) : sProp 𝕄) ⊢ (dats m 0 c).arrays ((dats m 0 c).arrAt · 0) := by
  rw [arrBufs_eq, arrays_eq]
  iintro ⟨H0, H1, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The closing line -/

/-- The two buffers the closing line touches: the region's result and the program's. -/
def S34 : Finset (DevRef τ sig) := {Proc.devRef .tc main_v3, Proc.devRef .tc main_v4}

open Classical in
/-- Core `c`'s buffer contents at the region's exit: as on entry, but for the region's result, which holds what the
    write-backs of all grid points left. -/
def Wx (c : Dev nD) : Valuation τ sig (Elt F) :=
  Function.update (V0 m c) (Proc.devRef .tc main_v3) ((dats m 0 c).arrAt 6 cfg0.N)

/-- and after the closing line. -/
def Wend (c : Dev nD) : Valuation τ sig (Elt F) := StableHlo.after (List.flatten [hostOps1]) (Wx m c)

theorem Wx_v3 (c : Dev nD) : Wx m c (Proc.devRef .tc main_v3) = (dats m 0 c).arrAt 6 cfg0.N := by
  unfold Wx; exact Function.update_self ..

theorem Wx_ne (c : Dev nD) (b : Ref sig .tc) (hb : b ≠ main_v3) : Wx m c (Proc.devRef .tc b) = V m c b := by
  unfold Wx; exact Function.update_of_ne (StableHlo.devRef_ne_of_ne hb) ..

/-- The closing line writes the program's result only. -/
theorem Wend_keep (c : Dev nD) (b : Ref sig .tc) (hb : b ≠ main_v4) : Wend m c (Proc.devRef .tc b) = Wx m c (Proc.devRef .tc b) :=
  StableHlo.after_of_forall_not_mem (b := Proc.devRef .tc b) _ _ (List.forall_iff_forall_mem.mp (by
    simp only [hostOps1, List.flatten_cons, List.flatten_nil, List.append_nil, List.Forall, StableHlo.unary_writes, Finset.mem_singleton]
    exact StableHlo.devRef_ne_of_ne hb))

theorem held_S34 (c : Dev nD) (W : Valuation τ sig (Elt F)) :
    (StableHlo.held (c.tc : Thread nD τ) S34 W : sProp 𝕄)
      = iprop((((c.tc : Thread nD τ).1, Proc.devRef .tc main_v3) ↦{fullShare} W (Proc.devRef .tc main_v3))
          ∗ (((c.tc : Thread nD τ).1, Proc.devRef .tc main_v4) ↦{fullShare} W (Proc.devRef .tc main_v4))) := by
  unfold StableHlo.held S34
  rw [bigSep_insert (by
    rw [Finset.mem_singleton]; exact StableHlo.devRef_ne_of_ne (by decide)), bigSep_singleton]
  rfl

/-- What bypasses the region on entry (the three arguments no window stages and the program's result buffer), -/
def Zin (c : Dev nD) : sProp 𝕄 :=
  Pipeline.unscopedRestP (Ix := Unit) (Name := ℕ) (U := UR sig nD τ) (Lvl := ℕ) Pipeline.Prefetch.none spec0 c (V m c)
/-- and after the closing line. -/
def Zend (c : Dev nD) : sProp 𝕄 :=
  Pipeline.unscopedRestP (Ix := Unit) (Name := ℕ) (U := UR sig nD τ) (Lvl := ℕ) Pipeline.Prefetch.none spec0 c (fun b => Wend m c (Proc.devRef .tc b))

set_option backward.isDefEq.respectTransparency.types false in
/-- From the region's exit the closing line runs holding the region's result and its own result buffer, and hands
    back the pipeline's arrays as they were and the bypassing buffers at the contents after it. -/
theorem tail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  unfold Zend Zin
  rw [Pipeline.unscopedRestP_none, Pipeline.unscopedRestP_none, unscopedRest0_eq, unscopedRest0_eq, arrays_eq,
    Wend_keep m c main_arg2 (by decide), Wend_keep m c main_arg3 (by decide), Wend_keep m c main_arg4 (by decide),
    Wx_ne m c main_arg2 (by decide), Wx_ne m c main_arg3 (by decide), Wx_ne m c main_arg4 (by decide)]
  have hS : ∀ ops ∈ ([hostOps1] : List (List (HloOp τ sig (Elt F)))), ∀ op ∈ ops, op.bufs ⊆ S34 := by
    intro ops hops op hop
    simp only [List.mem_cons, List.mem_nil_iff, or_false] at hops
    subst hops
    simp only [hostOps1, List.mem_cons, List.mem_nil_iff, or_false] at hop
    subst hop
    rw [StableHlo.unary_bufs]; exact subset_refl _
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hstep := Pipeline.wp_seqs_then (Ix := Unit) (Name := ℕ) (U := UR sig nD τ) (Lvl := ℕ) (pcfgs (F := F)) defs₀ Variants.none c S34 [] [hostOps1] hS hf (Wx m c) (K := Q')
  rw [held_S34, held_S34, Wx_v3, Wx_ne m c main_v4 (by decide)] at hstep
  rw [show (StableHlo.after ([hostOps1] : List (List (HloOp τ sig (Elt F)))).flatten (Wx m c)) = Wend m c from rfl,
    Wend_keep m c main_v3 (by decide), Wx_v3] at hstep
  iintro ⟨Hk, Hb, ⟨A0, A1, A2, A3, A4, A5, A6⟩, ⟨Z2, Z3, Z4, Z9⟩⟩
  ihave Hw := (hstep) $$ [Hb A6 Z9]
  · isplitl [Hb]; · iexact Hb
    isplitl [A6]; · iexact A6
    iexact Z9
  iapply Hw
  iintro ⟨Hb, H3, H4⟩
  rw [Pipeline.chain_nil, wp_pure]
  imodintro
  iapply Hk
  isplitl [A0 A1 A2 A3 A4 A5 H3]
  · isplitl [A0]; · iexact A0
    isplitl [A1]; · iexact A1
    isplitl [A2]; · iexact A2
    isplitl [A3]; · iexact A3
    isplitl [A4]; · iexact A4
    isplitl [A5]; · iexact A5
    iexact H3
  isplitl [Z2]; · iexact Z2
  isplitl [Z3]; · iexact Z3
  isplitl [Z4]; · iexact Z4
  iexact H4

/-! ## The region's ends -/

/-- The pipeline's windows, as the launch spells them, are the program's. -/
theorem spec_eq : (Pipeline.pin (fun p => (cfgs p).toPCfg (Val := Elt F)) (fun p => (cfgs p).toPCfg_adm) (0 : Fin 1)).spec = spec0 := rfl

/-- The invariant is the same at every point: the scoped buffers the pipeline does not stage. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Nothing that bypasses the region is handed to the body. -/
theorem entry_rest (c : Dev nD) :
    (Pipeline.unscopedRestP (Ix := Unit) (Name := ℕ) (U := UR sig nD τ) (Lvl := ℕ) ((cfgs 0).toPCfg (Val := Elt F)).pre
        (Pipeline.pin (fun p => (cfgs p).toPCfg (Val := Elt F)) (fun p => (cfgs p).toPCfg_adm) (0 : Fin 1)).spec c (V m c) : sProp 𝕄)
      ⊢ iprop(emp ∗ Zin m c) := by
  rw [spec_eq]
  unfold Zin
  iintro H
  isplitr; · iempintro
  iexact H

/-- The invariant at the first point is what the launch hands over; -/
theorem entry_inv (c : Dev nD) :
    iprop((emp : sProp 𝕄) ∗ Pipeline.prefHeld (Ix := Unit) (Name := ℕ) (U := UR sig nD τ) (Lvl := ℕ) ((cfgs 0).toPCfg (Val := Elt F)).pre c (fun _ => fullShare.right) ((cfgs 0).toPCfg_adm (Val := Elt F)).1
        ∗ Pipeline.scopedRest (Ix := Unit) (Name := ℕ) (U := UR sig nD τ) (Lvl := ℕ) (Val := Elt F) (Pipeline.pin (fun p => (cfgs p).toPCfg (Val := Elt F)) (fun p => (cfgs p).toPCfg_adm) (0 : Fin 1)).spec c)
      ⊢ (dats m 0 c).Φ 0 := by
  rw [spec_eq, Phi_eq]
  iintro ⟨-, -, Hr⟩
  iexact Hr

/-- and after the last point it is handed back. -/
theorem exit_inv (c : Dev nD) :
    (dats m 0 c).Φ (Fin.last (Pipeline.pin (fun p => (cfgs p).toPCfg (Val := Elt F)) (fun p => (cfgs p).toPCfg_adm) (0 : Fin 1)).N)
      ⊢ iprop((emp : sProp 𝕄) ∗ Pipeline.scopedRest (Ix := Unit) (Name := ℕ) (U := UR sig nD τ) (Lvl := ℕ) (Val := Elt F) (Pipeline.pin (fun p => (cfgs p).toPCfg (Val := Elt F)) (fun p => (cfgs p).toPCfg_adm) (0 : Fin 1)).spec c) := by
  rw [spec_eq, Phi_eq]
  iintro Hr
  isplitr; · iempintro
  iexact Hr

/-! ## The run -/

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- What the run concludes on every core: the program's result is the closing line's value of what the write-backs
    left in the region's result, and every argument array is as launched. -/
def Post (r : PUnit × MemSt nD τ sig (Elt F)) : Prop :=
  ∀ c : Dev nD,
    r.2.mem ((c.tc : Thread nD τ).loc main_v4) = Wend m c (Proc.devRef .tc main_v4)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

set_option backward.isDefEq.respectTransparency.types false in
/-- From any memory with zero counters every weakly fair execution of the program terminates, nothing faulting, in
    a state satisfying `Post`. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main
    (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl
    (V m) (hmain m Variants.none) (entry_split m) (fun _ k => k.elim0)
    (fun _ => iprop(emp)) (fun _ => iprop(emp)) (Zin m) (Zend m)
    (entry_rest m) (entry_inv m) (exit_inv m)
    (tail m)
    (fun c s => ∀ b ∈ Pipeline.restRefsP sig Pipeline.Prefetch.none spec0, s.mem ((c.tc : Thread nD τ).loc b) = Wend m c (Proc.devRef .tc b))
    (fun c s' => by
      unfold Zend Pipeline.unscopedRestP
      iintro ⟨-, HU, HSI⟩
      imodintro
      iapply (pointsTo_read_all (Pipeline.restRefsP sig Pipeline.Prefetch.none spec0) (fun b => (c.tc : Thread nD τ).loc b) (fun b => Wend m c (Proc.devRef .tc b)) s')
      isplitl [HU] <;> iassumption)
    (fun s h c => by
      obtain ⟨ha, -, hr⟩ := h c
      refine ⟨hr main_v4 (mem_rest main_v4 (by decide) (by decide)), ?_, ?_, ?_, ?_, ?_⟩
      · exact (ha 0).trans (((dats m 0 c).arrAt_in 0 rfl _).trans ((A_eq m c 0).trans (V_arg m c main_arg0 (by decide))))
      · exact (ha 2).trans (((dats m 0 c).arrAt_in 2 rfl _).trans ((A_eq m c 2).trans (V_arg m c main_arg1 (by decide))))
      · exact (hr main_arg2 (mem_rest main_arg2 (by decide) (by decide))).trans
          ((Wend_keep m c main_arg2 (by decide)).trans ((Wx_ne m c main_arg2 (by decide)).trans (V_arg m c main_arg2 (by decide))))
      · exact (hr main_arg3 (mem_rest main_arg3 (by decide) (by decide))).trans
          ((Wend_keep m c main_arg3 (by decide)).trans ((Wx_ne m c main_arg3 (by decide)).trans (V_arg m c main_arg3 (by decide))))
      · exact (hr main_arg4 (mem_rest main_arg4 (by decide) (by decide))).trans
          ((Wend_keep m c main_arg4 (by decide)).trans ((Wx_ne m c main_arg4 (by decide)).trans (V_arg m c main_arg4 (by decide)))))

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Run

end
-- ==== Proof.HostGlue.lean ====
/-
  The host's re-layings around the kernel, read at an index.

  Before the kernel runs, the host makes each bias vector a one-row matrix (a reshape `[N] → [1, N]`, which keeps the
  row-major order, so entry `(0, q)` is entry `q` of the vector) and transposes the second layer's weights
  (`[512, 64] → [64, 512]`, entry `(j, k)` is entry `(k, j)`). After it, the host transposes the kernel's output
  (`[64, 32768] → [32768, 64]`, entry `(i, j)` is entry `(j, i)`). These are the four facts below; they hold for
  entries of any type, and for whichever proof of the shape condition the term at hand carries (the condition is an
  implicit argument, found from the term).

  The host's reshape writes `fun i => e ▸ shapeCast t x h i` with `e` the reflexivity proof that the element type is
  unchanged; that cast computes away, so `reshape_row` (or `reshape_b1`, `reshape_b2`) reads it as it stands.
-/
import proofs.«155692_g8263517077508_cont_9to1_m_1080_12_alg».proof.KernelIdeal
import Idealize.ShloMosaic.Lib.ValueLayout

noncomputable section

namespace Cert.KernelIdeal.Glue

open Idealize.ShloMosaic Idealize.ShloMosaic.ValueIdx Cert.KernelIdeal

/-- A vector of `N` entries made a one-row matrix: entry `(0, q)` of the matrix is entry `q` of the vector, both being
    at row-major position `q`. -/
theorem reshape_row {α : Type} {N : Nat} (b : (⟨1, ![N]⟩ : Shape).Idx → α)
    {h : (⟨1, ![N]⟩ : Shape).ShapeCasts ⟨2, ![1, N]⟩} (q : Fin N) :
    shapeCast ⟨2, ![1, N]⟩ b h (ix2 (0 : Fin 1) q) = b (ix1 q) :=
  shapeCast_a_1a_apply b h 0 q

/-- The first layer's bias, 512 entries, as the one-row matrix the kernel is handed. -/
theorem reshape_b1 (b : FVec Ideal S512 .f32) {h : S512.ShapeCasts S1x512} (k : Fin 512) :
    shapeCast S1x512 b h (ix2 (0 : Fin 1) k) = b (ix1 k) :=
  reshape_row b k

/-- The second layer's bias, 64 entries, likewise. -/
theorem reshape_b2 (b : FVec Ideal S64 .f32) {h : S64.ShapeCasts S1x64} (j : Fin 64) :
    shapeCast S1x64 b h (ix2 (0 : Fin 1) j) = b (ix1 j) :=
  reshape_row b j

/-- The second layer's weights as the kernel is handed them: entry `(j, k)` of the transposed array is entry `(k, j)`
    of the weights. -/
theorem transpose_w2 (w : FVec Ideal S512x64 .f32) {h : S512x64.Transposes [1, 0] S64x512} (j : Fin 64) (k : Fin 512) :
    transpose S64x512 [1, 0] w h (ix2 j k) = w (ix2 k j) :=
  transpose_ix2_apply w h j k

/-- The result as the host returns it: entry `(i, j)` — token `i`, score `j` — is entry `(j, i)` of what the kernel
    wrote. -/
theorem transpose_out (o : FVec Ideal S64x32768 .f32) {h : S64x32768.Transposes [1, 0] S32768x64} (i : Fin 32768) (j : Fin 64) :
    transpose S32768x64 [1, 0] o h (ix2 i j) = o (ix2 j i) :=
  transpose_ix2_apply o h i j

end Cert.KernelIdeal.Glue

end
-- ==== Proof.IdealHost.lean ====
/-
  The host lines around the kernel region, read at an index on the extended reals.

  Before the region the two bias vectors are re-laid as one-row matrices and the second weight matrix is transposed;
  after it the region's 64 × 32768 result is transposed into the program's 32768 × 64 result. Each of the four is a
  pure re-indexing of one array.
-/
import proofs.«155692_g8263517077508_cont_9to1_m_1080_12_alg».proof.Proof.IdealRun
import proofs.«155692_g8263517077508_cont_9to1_m_1080_12_alg».proof.Proof.HostGlue

set_option maxRecDepth 16384

noncomputable section

namespace Cert.KernelIdeal.Host

open Cert.KernelIdeal Cert.KernelIdeal.Gen Cert.KernelIdeal.Region Cert.KernelIdeal.Run
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first bias as the region finds it: entry `(0, k)` of the one-row matrix is entry `k` of the vector. -/
theorem V_b1 (c : Dev nD) (k : Fin 512) :
    V m c main_v0 (ix2 (0 : Fin 1) k) = m ((c : Thread nD τ).loc main_arg2) (ix1 k) := by
  show StableHlo.after hostOps0 (fun b => m (c, b)) (Proc.devRef .tc main_v0) (ix2 (0 : Fin 1) k) = _
  after_results
  exact Cert.KernelIdeal.Glue.reshape_b1 _ k

/-- The second weight matrix as the region finds it: entry `(j, k)` of the transposed array is entry `(k, j)`. -/
theorem V_w2t (c : Dev nD) (j : Fin 64) (k : Fin 512) :
    V m c main_v1 (ix2 j k) = m ((c : Thread nD τ).loc main_arg3) (ix2 k j) := by
  show StableHlo.after hostOps0 (fun b => m (c, b)) (Proc.devRef .tc main_v1) (ix2 j k) = _
  after_results
  exact Cert.KernelIdeal.Glue.transpose_w2 _ j k

/-- The second bias as the region finds it. -/
theorem V_b2 (c : Dev nD) (j : Fin 64) :
    V m c main_v2 (ix2 (0 : Fin 1) j) = m ((c : Thread nD τ).loc main_arg4) (ix1 j) := by
  show StableHlo.after hostOps0 (fun b => m (c, b)) (Proc.devRef .tc main_v2) (ix2 (0 : Fin 1) j) = _
  after_results
  exact Cert.KernelIdeal.Glue.reshape_b2 _ j

/-- The program's result: entry `(i, j)` — token `i`, score `j` — is entry `(j, i)` of what the write-backs left in
    the region's result. -/
theorem result_apply (c : Dev nD) (i : Fin 32768) (j : Fin 64) :
    Wend m c (Proc.devRef .tc main_v4) (ix2 i j) = (dats m 0 c).arrAt 6 cfg0.N (ix2 j i) := by
  show StableHlo.after hostOps1 (Wx m c) (Proc.devRef .tc main_v4) (ix2 i j) = _
  after_results
  rw [Wx_v3]
  exact Cert.KernelIdeal.Glue.transpose_out _ i j

end Cert.KernelIdeal.Host

end
-- ==== Proof.RouterSpec.lean ====
/-
  The router's score as a function of one token's features.

  A token's feature row `x` (length `K`) passes through a hidden layer of width `H` — the affine map
  `x ↦ x · W1 + b1` followed by the rectifier `max · 0` — and then through a second affine map
  `h ↦ h · W2 + b2` into `G` scores. Everything is stated on the extended reals and for arbitrary extents,
  one token at a time: a tile of 512 tokens and the whole array of 32768 are read by the same formula.
-/
import Idealize.ShloMosaic.Lib.ValueIdx
import Idealize.ShloMosaic.PureOps.Ideal

noncomputable section

namespace Cert.Router

variable {K H G : Nat}

/-- Entry `k` of the hidden layer of a token with features `x`: `max ((∑ l, x l · W1 l k) + b1 k) 0`. -/
def hidden (x : Fin K → EReal) (W1 : Fin K → Fin H → EReal) (b1 : Fin H → EReal) (k : Fin H) : EReal :=
  max ((∑ l : Fin K, x l * W1 l k) + b1 k) 0

/-- Score `j` of a token with features `x`: `(∑ k, hidden k · W2 k j) + b2 j`. -/
def score (x : Fin K → EReal) (W1 : Fin K → Fin H → EReal) (b1 : Fin H → EReal) (W2 : Fin H → Fin G → EReal)
    (b2 : Fin G → EReal) (j : Fin G) : EReal :=
  (∑ k : Fin H, hidden x W1 b1 k * W2 k j) + b2 j

end Cert.Router

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«155692_g8263517077508_cont_9to1_m_1080_12_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.KernelTile.lean ====
/-
  The tile of scores one step of the kernel computes, read entry by entry at the extended reals.

  One step takes 512 tokens (a 512 × 4096 tile `X` of features), the first layer's weights `W1` (4096 × 512) and
  bias `b1` (one row of 512), the second layer's weights handed over TRANSPOSED (`W2ᵀ`, 64 × 512) and its bias `b2`
  (one row of 64), and writes the tile of scores TRANSPOSED (64 × 512). Read at the extended reals, where a product
  into a zero accumulator is the plain sum of products and the rectifier is the maximum with zero:

    hidden (r, k) = max ((∑ l, X (r, l) · W1 (l, k)) + b1 k) 0
    out (g, r)    = (∑ k, hidden (r, k) · W2ᵀ (g, k)) + b2 g

  — entry `(g, r)` of the tile written is score `g` of token `r` of the tile. The two transpositions cancel against
  the specification's own indexing (`W2 k j = W2ᵀ (j, k)`), so nothing but reading each operation at an index is
  needed: no law of arithmetic is used, and the statement holds for infinite entries too.

  The step occurs twice in the kernel's body (once per half of the 1024 tokens a grid point handles), so the two layers are read once,
  for arbitrary operands (`hidden_rows`, `score_rows`), and each half instantiates them.
-/
import proofs.«155692_g8263517077508_cont_9to1_m_1080_12_alg».proof.Proof.Gen.KernelIdeal.Skeleton
import proofs.«155692_g8263517077508_cont_9to1_m_1080_12_alg».proof.Proof.RouterSpec
import proofs.«155692_g8263517077508_cont_9to1_m_1080_12_alg».proof.Proof.LibTileRows

noncomputable section

namespace Cert.KernelIdeal.Tile

open Idealize.ShloMosaic Idealize.ShloMosaic.ValueIdx Cert.Router Cert.KernelIdeal Cert.KernelIdeal.Gen

/-- The first layer's product contracts the features' columns against the weights' rows, with no batch axis. -/
theorem plain_first : Cert.PlainDot.IsPlain dot_S512x4096_S4096x512_S512x512_1_0_0_1_n_n := ⟨rfl, rfl, rfl, rfl, rfl, rfl⟩

/-- So does the second layer's. -/
theorem plain_second : Cert.PlainDot.IsPlain dot_S512x512_S512x64_S512x64_1_0_0_1_n_n := ⟨rfl, rfl, rfl, rfl, rfl, rfl⟩

/-- The second layer's weights as the step uses them: the 64 × 512 array handed over is re-laid to its own shape
    (nothing changes) and transposed, so the 512 × 64 matrix the product sees has at `(k, j)` the handed-over entry
    `(j, k)`. -/
theorem w2_apply (v0 : Vec Ideal S64x512 .f32) (k : Fin 512) (j : Fin 64) :
    k0_pay2 (F := Ideal) v0 (ix2 k j) = v0 (ix2 j k) := by
  unfold k0_pay2
  refine (transpose_ix2_apply _ _ k j).trans ?_
  rw [shapeCast_self]

/-- The hidden layer of a tile. Row `r` of `X · W1` into the zero accumulator is `∑ l, X (r, l) · W1 (l, ·)`; the bias
    row is spread over the 512 rows and added; the maximum with a splat of the zero word is the rectifier. Entry
    `(r, k)` is therefore the specification's `hidden` of row `r` of `X`, at `k`. -/
theorem hidden_rows (X : FVec Ideal S512x4096 .f32) (W1 : FVec Ideal S4096x512 .f32) (b1 : FVec Ideal S1x512 .f32)
    (r k : Fin 512) :
    maximumf
        (addf (matmul dot_S512x4096_S4096x512_S512x512_1_0_0_1_n_n none X W1 (constant S512x512 .f32 0x00000000#32))
          (broadcastTo S512x512 (shapeCast S1x512 b1 shapeCasts_S1x512_S1x512) broadcasts_S1x512_S512x512))
        (broadcast S512x512 (Scalar.ofBits (F := Ideal) .f32 0x00000000#32)) (ix2 r k)
      = hidden (fun l => X (ix2 r l)) (fun l k => W1 (ix2 l k)) (fun k => b1 (ix2 (0 : Fin 1) k)) k := by
  -- the product, row by row
  have h1 : ∀ p q, matmul dot_S512x4096_S4096x512_S512x512_1_0_0_1_n_n none X W1 (constant S512x512 .f32 0x00000000#32) (ix2 p q)
      = ∑ l : Fin 4096, X (ix2 p l) * W1 (ix2 l q) :=
    fun p q => Cert.PlainDot.matmul_zero_apply _ plain_first none X W1 p q
  -- plus the bias row
  have h2 := Cert.TileRows.bias_rows _ b1 shapeCasts_S1x512_S1x512 broadcasts_S1x512_S512x512 _ h1
  -- and the rectifier: the definition of `hidden`
  exact Cert.TileRows.relu_rows _ _ h2 r k

/-- The second layer on a tile `Hd` whose rows `hr` are known. Row `r` of `Hd · W2` into the zero accumulator, with
    `W2 (k, g) = W2ᵀ (g, k)` by `w2_apply`, is `∑ k, hr r k · W2ᵀ (g, k)`; the bias row is spread over the rows and
    added. -/
theorem score_rows (Hd : FVec Ideal S512x512 .f32) (v0 : Vec Ideal S64x512 .f32) (b2 : FVec Ideal S1x64 .f32)
    (hr : Fin 512 → Fin 512 → EReal) (hH : ∀ p k, Hd (ix2 p k) = hr p k) (r : Fin 512) (g : Fin 64) :
    addf (matmul dot_S512x512_S512x64_S512x64_1_0_0_1_n_n none Hd (k0_pay2 v0) (constant S512x64 .f32 0x00000000#32))
        (broadcastTo S512x64 (shapeCast S1x64 b2 shapeCasts_S1x64_S1x64) broadcasts_S1x64_S512x64) (ix2 r g)
      = (∑ k : Fin 512, hr r k * v0 (ix2 g k)) + b2 (ix2 (0 : Fin 1) g) := by
  have h1 : ∀ p q, matmul dot_S512x512_S512x64_S512x64_1_0_0_1_n_n none Hd (k0_pay2 v0) (constant S512x64 .f32 0x00000000#32) (ix2 p q)
      = ∑ k : Fin 512, hr p k * v0 (ix2 q k) := fun p q => by
    refine (Cert.PlainDot.matmul_zero_apply _ plain_second none Hd (k0_pay2 v0) p q).trans ?_
    exact Finset.sum_congr rfl fun k _ => by rw [hH p k, w2_apply]
  exact Cert.TileRows.bias_rows _ b2 shapeCasts_S1x64_S1x64 broadcasts_S1x64_S512x64 _ h1 r g

/-- The first half's tile: what is stored at `(g, r)` is score `g` of token `r` of the first half's 512 tokens. The
    stored value is the transpose of the second layer's output, whose operand is the first layer's hidden tile. -/
theorem first_half (v0 : Vec Ideal S64x512 .f32) (v3 : Vec Ideal S512x4096 .f32) (v4 : Vec Ideal S4096x512 .f32)
    (v6 : Vec Ideal S1x512 .f32) (v13 : Vec Ideal S1x64 .f32) (g : Fin 64) (r : Fin 512) :
    k0_pay3 (F := Ideal) v0 v3 v4 v6 v13 (ix2 g r)
      = score (fun l => v3 (ix2 r l)) (fun l k => v4 (ix2 l k)) (fun k => v6 (ix2 (0 : Fin 1) k))
          (fun k j => v0 (ix2 j k)) (fun j => v13 (ix2 (0 : Fin 1) j)) g := by
  unfold k0_pay3
  -- the tile is written transposed: entry (g, r) of the store is entry (r, g) of the second layer's output
  refine (transpose_ix2_apply _ _ g r).trans ?_
  -- the second layer over the hidden tile, whose rows `hidden_rows` names
  refine (score_rows _ v0 v13 _ (fun p k => hidden_rows v3 v4 v6 p k) r g).trans ?_
  -- which is the definition of `score`
  rfl

/-- The second half's tile: the same, over the second half's 512 tokens. Here the kernel's body splits the value in
    three (the second layer's product; the bias spread over the rows; their sum, transposed). -/
theorem second_half (v0 : Vec Ideal S64x512 .f32) (v19 : Vec Ideal S512x4096 .f32) (v20 : Vec Ideal S4096x512 .f32)
    (v22 : Vec Ideal S1x512 .f32) (v29 : Vec Ideal S1x64 .f32) (g : Fin 64) (r : Fin 512) :
    k0_pay1 (F := Ideal) (k0_pay4 v0 v19 v20 v22) (k0_pay5 v29) (ix2 g r)
      = score (fun l => v19 (ix2 r l)) (fun l k => v20 (ix2 l k)) (fun k => v22 (ix2 (0 : Fin 1) k))
          (fun k j => v0 (ix2 j k)) (fun j => v29 (ix2 (0 : Fin 1) j)) g := by
  unfold k0_pay1
  refine (transpose_ix2_apply _ _ g r).trans ?_
  unfold k0_pay4 k0_pay5
  refine (score_rows _ v0 v29 _ (fun p k => hidden_rows v19 v20 v22 p k) r g).trans ?_
  rfl

end Cert.KernelIdeal.Tile

end
-- ==== Proof.IdealTile.lean ====
/-
  The output buffer after one grid point, read at an index.

  The body fills its 64 × 1024 output buffer by two stores, the left half (columns 0 … 511) from the first block of
  512 tokens and the right half (columns 512 … 1023) from the second, the right one last. Column `q` of the buffer
  is therefore token `q` of the 1024 tokens the point handles: under the right half the last store's value is read,
  off it the first store's. With each stored tile read entry by entry (the two halves of the body), entry
  `(g, q)` of the buffer is score `g` of that token.
-/
import proofs.«155692_g8263517077508_cont_9to1_m_1080_12_alg».proof.Proof.IdealBody
import proofs.«155692_g8263517077508_cont_9to1_m_1080_12_alg».proof.Proof.KernelTile
import proofs.«155692_g8263517077508_cont_9to1_m_1080_12_alg».proof.Proof.RouterSpec

noncomputable section

namespace Cert.KernelIdeal.Array

open Idealize.ShloMosaic Idealize.ShloMosaic.ValueIdx Cert.Router Cert.KernelIdeal Cert.KernelIdeal.Gen Cert.KernelIdeal.Body

/-- The zero offsets of a whole-buffer rectangle, as the constant function. -/
theorem hz : (![0, 0] : Fin 2 → Nat) = fun _ => 0 := funext fun a => by fin_cases a <;> rfl

/-- A column of a half is a column of the buffer, -/
theorem lt_left (r : Fin 512) : r.val < 1024 := by omega
/-- in the right half 512 further on. -/
theorem lt_right (r : Fin 512) : 512 + r.val < 1024 := by omega

/-- Entry `(g, r)` of the left half sits at `(g, r)` of the buffer. -/
theorem rL_emb (g : Fin 64) (r : Fin 512) : rL.emb (ix2 g r) = ix2 g (⟨r.val, lt_left r⟩ : Fin 1024) :=
  funext fun a => Fin.ext (by
    match a with
    | ⟨0, _⟩ => show 0 + 1 * g.val = g.val; omega
    | ⟨1, _⟩ => show 0 + 1 * r.val = r.val; omega)

/-- Entry `(g, r)` of the right half sits at `(g, 512 + r)` of the buffer. -/
theorem rR_emb (g : Fin 64) (r : Fin 512) : rR.emb (ix2 g r) = ix2 g (⟨512 + r.val, lt_right r⟩ : Fin 1024) :=
  funext fun a => Fin.ext (by
    match a with
    | ⟨0, _⟩ => show 0 + 1 * g.val = g.val; omega
    | ⟨1, _⟩ => show 512 + 1 * r.val = 512 + r.val; omega)

/-- A column below 512 is not under the right half. -/
theorem not_mem_rR (g : Fin 64) (r : Fin 512) : ix2 g (⟨r.val, lt_left r⟩ : Fin 1024) ∉ rR.set := fun h => by
  have h1 := (Rect.mem_set_unit.mp h) 1
  have : 512 ≤ r.val := h1.1
  omega

/-- Two stores, the right half last: under the right half the buffer holds the last store's value, -/
theorem canon_right (pR pL : Vec Ideal S64x512 .f32) (g : Fin 64) (r : Fin 512) :
    View.canon [(⟨rR, pR⟩ : View.Piece (Elt Ideal) S64x1024 .f32), ⟨rL, pL⟩] (ix2 g (⟨512 + r.val, lt_right r⟩ : Fin 1024))
      = pR (ix2 g r) := by
  rw [← rR_emb g r]
  exact View.canon_cons_emb rR pR [⟨rL, pL⟩] (ix2 g r)

/-- and off it (a column below 512) the first store's. -/
theorem canon_left (pR pL : Vec Ideal S64x512 .f32) (g : Fin 64) (r : Fin 512) :
    View.canon [(⟨rR, pR⟩ : View.Piece (Elt Ideal) S64x1024 .f32), ⟨rL, pL⟩] (ix2 g (⟨r.val, lt_left r⟩ : Fin 1024))
      = pL (ix2 g r) := by
  refine (View.canon_cons_of_not_mem (⟨rR, pR⟩ : View.Piece (Elt Ideal) S64x1024 .f32) [⟨rL, pL⟩] (not_mem_rR g r)).trans ?_
  rw [← rL_emb g r]
  exact View.canon_cons_emb rL pL [] (ix2 g r)

/-- Columns 512 … 1023 of the buffer hold the scores of the second block's tokens: the last store's value. -/
theorem tile_right (xa xb : Vec Ideal S512x4096 .f32) (w1 : Vec Ideal S4096x512 .f32) (b1 : Vec Ideal S1x512 .f32)
    (w2t : Vec Ideal S64x512 .f32) (b2 : Vec Ideal S1x64 .f32) (g : Fin 64) (r : Fin 512) :
    tile xa xb w1 b1 w2t b2 (ix2 g (⟨512 + r.val, lt_right r⟩ : Fin 1024))
      = score (fun l => xb (ix2 r l)) (fun l k => w1 (ix2 l k)) (fun k => b1 (ix2 (0 : Fin 1) k))
          (fun k j => w2t (ix2 j k)) (fun j => b2 (ix2 (0 : Fin 1) j)) g := by
  unfold tile
  refine (canon_right _ _ g r).trans ?_
  simp only [View.ld_unit_zero (S := S512x4096) hz, View.ld_unit_zero (S := S4096x512) hz, View.ld_unit_zero (S := S1x512) hz,
    View.ld_unit_zero (S := S64x512) hz, View.ld_unit_zero (S := S1x64) hz]
  exact Tile.second_half w2t xb w1 b1 b2 g r

/-- Columns 0 … 511 hold the scores of the first block's tokens: the last store does not reach them, and the first
    store's value is read. -/
theorem tile_left (xa xb : Vec Ideal S512x4096 .f32) (w1 : Vec Ideal S4096x512 .f32) (b1 : Vec Ideal S1x512 .f32)
    (w2t : Vec Ideal S64x512 .f32) (b2 : Vec Ideal S1x64 .f32) (g : Fin 64) (r : Fin 512) :
    tile xa xb w1 b1 w2t b2 (ix2 g (⟨r.val, lt_left r⟩ : Fin 1024))
      = score (fun l => xa (ix2 r l)) (fun l k => w1 (ix2 l k)) (fun k => b1 (ix2 (0 : Fin 1) k))
          (fun k j => w2t (ix2 j k)) (fun j => b2 (ix2 (0 : Fin 1) j)) g := by
  unfold tile
  refine (canon_left _ _ g r).trans ?_
  simp only [View.ld_unit_zero (S := S512x4096) hz, View.ld_unit_zero (S := S4096x512) hz, View.ld_unit_zero (S := S1x512) hz,
    View.ld_unit_zero (S := S64x512) hz, View.ld_unit_zero (S := S1x64) hz]
  exact Tile.first_half w2t xa w1 b1 b2 g r

/-! ## The whole array of scores, and the buffer as 1024 of its columns -/

/-- The scores of every token, laid out scores × tokens: entry `(g, n)` is score `g` of token `n`, from the array of
    tokens `x`, the first layer's weights and one-row bias, the second layer's weights TRANSPOSED and its one-row
    bias. -/
def scoresT (x : S32768x4096.Idx → EReal) (w1 : S4096x512.Idx → EReal) (b1 : S1x512.Idx → EReal) (w2t : S64x512.Idx → EReal)
    (b2 : S1x64.Idx → EReal) : S64x32768.Idx → EReal :=
  fun i => Cert.Router.score (fun l => x (ix2 (⟨(i 1).val, (i 1).isLt⟩ : Fin 32768) l)) (fun l k => w1 (ix2 l k))
    (fun k => b1 (ix2 (0 : Fin 1) k)) (fun k j => w2t (ix2 j k)) (fun j => b2 (ix2 (0 : Fin 1) j)) (⟨(i 0).val, (i 0).isLt⟩ : Fin 64)

/-- If the two token blocks are rows `1024 T … 1024 T + 511` and `1024 T + 512 … 1024 T + 1023` of the token array
    `X`, the buffer after the point is columns `1024 T … 1024 T + 1023` of the array of scores: column `q` of the buffer
    is token `1024 T + q`, in the left half from the first block and in the right half from the second. -/
theorem tile_eq_scoresT (X : S32768x4096.Idx → EReal) (xa xb : Vec Ideal S512x4096 .f32) (w1 : Vec Ideal S4096x512 .f32)
    (b1 : Vec Ideal S1x512 .f32) (w2t : Vec Ideal S64x512 .f32) (b2 : Vec Ideal S1x64 .f32) (T : Nat) (hT : T < 32)
    (ha : ∀ (r : Fin 512) (l : Fin 4096), xa (ix2 r l) = X (ix2 (⟨1024 * T + r.val, by omega⟩ : Fin 32768) l))
    (hb : ∀ (r : Fin 512) (l : Fin 4096), xb (ix2 r l) = X (ix2 (⟨1024 * T + (512 + r.val), by omega⟩ : Fin 32768) l))
    (g : Fin 64) (q : Fin 1024) :
    tile xa xb w1 b1 w2t b2 (ix2 g q) = scoresT X w1 b1 w2t b2 (ix2 g (⟨1024 * T + q.val, by omega⟩ : Fin 32768)) := by
  by_cases hq : q.val < 512
  · -- a column of the left half: a token of the first block
    obtain ⟨r, rfl⟩ : ∃ r : Fin 512, q = ⟨r.val, lt_left r⟩ := ⟨⟨q.val, hq⟩, rfl⟩
    refine (tile_left xa xb w1 b1 w2t b2 g r).trans ?_
    exact congrArg (fun x => score x (fun l k => w1 (ix2 l k)) (fun k => b1 (ix2 (0 : Fin 1) k)) (fun k j => w2t (ix2 j k))
      (fun j => b2 (ix2 (0 : Fin 1) j)) g) (funext fun l => ha r l)
  · -- a column of the right half: a token of the second block
    obtain ⟨r, rfl⟩ : ∃ r : Fin 512, q = ⟨512 + r.val, lt_right r⟩ :=
      ⟨⟨q.val - 512, by omega⟩, Fin.ext (by show q.val = 512 + (q.val - 512); omega)⟩
    refine (tile_right xa xb w1 b1 w2t b2 g r).trans ?_
    exact congrArg (fun x => score x (fun l k => w1 (ix2 l k)) (fun k => b1 (ix2 (0 : Fin 1) k)) (fun k j => w2t (ix2 j k))
      (fun j => b2 (ix2 (0 : Fin 1) j)) g) (funext fun l => hb r l)

end Cert.KernelIdeal.Array

end
-- ==== Proof.IdealBlocks.lean ====
/-
  The windows' blocks at a grid point, read off their arrays.

  The grid has 32 points. At point `t` the first token window holds block `2 t` of the token array cut in blocks of 512
  rows, the second block `2 t + 1`, so between them rows `1024 t … 1024 t + 1023`; the four weight and bias windows hold
  the one block of their arrays, the whole array; the output window's block is block `t` of the output array cut in
  blocks of 1024 columns. An entry of a block sits in its array at block index × block size + its coordinate in the
  block, on each axis; the block indices are decided once, over the 32 points.
-/
import proofs.«155692_g8263517077508_cont_9to1_m_1080_12_alg».proof.Proof.IdealRegion
import Idealize.ShloMosaic.Lib.ValueIdx

noncomputable section

namespace Cert.KernelIdeal.Array

open Idealize.ShloMosaic Idealize.ShloMosaic.TcCoe Idealize.ShloMosaic.ValueIdx Idealize.SL.Sem
open Cert.KernelIdeal Cert.KernelIdeal.Gen Cert.KernelIdeal.Region

/-- A grid point's number is below 32. -/
theorem t_lt (t : Fin cfg0.N) : t.val < 32 := lt_of_lt_of_eq t.isLt N_0

/-- The windows' block indices at point `t`, decided over the grid. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-! ## Where a block's entry sits in its array -/

/-- Row `r` of the first token window's block is row `1024 t + r` of the token array. -/
theorem blk0_emb (t : Fin cfg0.N) (r : Fin 512) (l : Fin 4096) :
    ((cfg0.win 0).blk t).view.emb (ix2 r l)
      = (ix2 (⟨1024 * t.val + r.val, by have := t_lt t; omega⟩ : Fin 32768) l : S32768x4096.Idx) := by
  obtain ⟨e0, e1, -⟩ := idx_facts t
  funext a; apply Fin.ext
  match a with
  | ⟨0, _⟩ => show win0_0.index t (0 : Fin 2) * 512 + 1 * r.val = 1024 * t.val + r.val; omega
  | ⟨1, _⟩ => show win0_0.index t (1 : Fin 2) * 4096 + 1 * l.val = l.val; omega

/-- Row `r` of the second token window's block is row `1024 t + 512 + r`. -/
theorem blk1_emb (t : Fin cfg0.N) (r : Fin 512) (l : Fin 4096) :
    ((cfg0.win 1).blk t).view.emb (ix2 r l)
      = (ix2 (⟨1024 * t.val + (512 + r.val), by have := t_lt t; omega⟩ : Fin 32768) l : S32768x4096.Idx) := by
  obtain ⟨-, -, e0, e1, -⟩ := idx_facts t
  funext a; apply Fin.ext
  match a with
  | ⟨0, _⟩ => show win0_1.index t (0 : Fin 2) * 512 + 1 * r.val = 1024 * t.val + (512 + r.val); omega
  | ⟨1, _⟩ => show win0_1.index t (1 : Fin 2) * 4096 + 1 * l.val = l.val; omega

/-- The first layer's weights: the block is the array. -/
theorem blk2_emb (t : Fin cfg0.N) (j : S4096x512.Idx) : ((cfg0.win 2).blk t).view.emb j = j := by
  obtain ⟨-, -, -, -, e0, e1, -⟩ := idx_facts t
  funext a; apply Fin.ext
  match a with
  | ⟨0, _⟩ => show win0_2.index t (0 : Fin 2) * 4096 + 1 * (j 0).val = (j 0).val; omega
  | ⟨1, _⟩ => show win0_2.index t (1 : Fin 2) * 512 + 1 * (j 1).val = (j 1).val; omega

/-- The first layer's bias row: the block is the array. -/
theorem blk3_emb (t : Fin cfg0.N) (j : S1x512.Idx) : ((cfg0.win 3).blk t).view.emb j = j := by
  obtain ⟨-, -, -, -, -, -, e0, e1, -⟩ := idx_facts t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

/-- The second layer's transposed weights: the block is the array. -/
theorem blk4_emb (t : Fin cfg0.N) (j : S64x512.Idx) : ((cfg0.win 4).blk t).view.emb j = j := by
  obtain ⟨-, -, -, -, -, -, -, -, e0, e1, -⟩ := idx_facts t
  funext a; apply Fin.ext
  match a with
  | ⟨0, _⟩ => show win0_4.index t (0 : Fin 2) * 64 + 1 * (j 0).val = (j 0).val; omega
  | ⟨1, _⟩ => show win0_4.index t (1 : Fin 2) * 512 + 1 * (j 1).val = (j 1).val; omega

/-- The second layer's bias row: the block is the array. -/
theorem blk5_emb (t : Fin cfg0.N) (j : S1x64.Idx) : ((cfg0.win 5).blk t).view.emb j = j := by
  obtain ⟨-, -, -, -, -, -, -, -, -, -, e0, e1, -⟩ := idx_facts t
  funext a; apply Fin.ext
  match a with
  | ⟨0, _⟩ => show win0_5.index t (0 : Fin 2) * 1 + 1 * (j 0).val = (j 0).val; omega
  | ⟨1, _⟩ => show win0_5.index t (1 : Fin 2) * 64 + 1 * (j 1).val = (j 1).val; omega

/-- Column `q` of the output window's block is column `1024 t + q` of the output array. -/
theorem blk6_emb (t : Fin cfg0.N) (g : Fin 64) (q : Fin 1024) :
    ((cfg0.win 6).blk t).view.emb (ix2 g q)
      = (ix2 g (⟨1024 * t.val + q.val, by have := t_lt t; omega⟩ : Fin 32768) : S64x32768.Idx) := by
  obtain ⟨-, -, -, -, -, -, -, -, -, -, -, -, e0, e1⟩ := idx_facts t
  funext a; apply Fin.ext
  match a with
  | ⟨0, _⟩ => show win0_6.index t (0 : Fin 2) * 64 + 1 * g.val = g.val; omega
  | ⟨1, _⟩ => show win0_6.index t (1 : Fin 2) * 1024 + 1 * q.val = 1024 * t.val + q.val; omega

/-! ## The input blocks as parts of the arrays the region finds -/

variable (m : (ℓ : Loc nD τ sig) → Buf (Elt Ideal) ℓ)

/-- The first token window's block, entry by entry. -/
theorem iblk0_apply (c : Dev nD) (t : Fin cfg0.N) (r : Fin 512) (l : Fin 4096) :
    (iblk m c 0 t : Vec Ideal S512x4096 .f32) (ix2 r l)
      = (V m c main_arg0 : S32768x4096.Idx → EReal) (ix2 (⟨1024 * t.val + r.val, by have := t_lt t; omega⟩ : Fin 32768) l) :=
  congrArg (V m c main_arg0 : S32768x4096.Idx → EReal) (blk0_emb t r l)

/-- The second token window's block, entry by entry. -/
theorem iblk1_apply (c : Dev nD) (t : Fin cfg0.N) (r : Fin 512) (l : Fin 4096) :
    (iblk m c 1 t : Vec Ideal S512x4096 .f32) (ix2 r l)
      = (V m c main_arg0 : S32768x4096.Idx → EReal) (ix2 (⟨1024 * t.val + (512 + r.val), by have := t_lt t; omega⟩ : Fin 32768) l) :=
  congrArg (V m c main_arg0 : S32768x4096.Idx → EReal) (blk1_emb t r l)

/-- The first layer's weights as the body finds them are the array's. -/
theorem iblk2_eq (c : Dev nD) (t : Fin cfg0.N) : (iblk m c 2 t : Vec Ideal S4096x512 .f32) = V m c main_arg1 :=
  funext fun j => congrArg (V m c main_arg1 : S4096x512.Idx → EReal) (blk2_emb t j)

/-- The first layer's bias row likewise (the array is the host's one-row re-laying of the bias vector). -/
theorem iblk3_eq (c : Dev nD) (t : Fin cfg0.N) : (iblk m c 3 t : Vec Ideal S1x512 .f32) = V m c main_v0 :=
  funext fun j => congrArg (V m c main_v0 : S1x512.Idx → EReal) (blk3_emb t j)

/-- The second layer's transposed weights likewise (the array is the host's transposition). -/
theorem iblk4_eq (c : Dev nD) (t : Fin cfg0.N) : (iblk m c 4 t : Vec Ideal S64x512 .f32) = V m c main_v1 :=
  funext fun j => congrArg (V m c main_v1 : S64x512.Idx → EReal) (blk4_emb t j)

/-- The second layer's bias row likewise. -/
theorem iblk5_eq (c : Dev nD) (t : Fin cfg0.N) : (iblk m c 5 t : Vec Ideal S1x64 .f32) = V m c main_v2 :=
  funext fun j => congrArg (V m c main_v2 : S1x64.Idx → EReal) (blk5_emb t j)

end Cert.KernelIdeal.Array

end
-- ==== Proof.IdealArray.lean ====
/-
  The output array after the run: the scores of every token.

  What a grid point writes back is what its body left in the output buffer, and that is columns
  `1024 t … 1024 t + 1023` of ONE array, the scores of all 32768 tokens laid out scores × tokens (`scoresT`): the two
  token blocks of point `t` are rows `1024 t … 1024 t + 1023` of the token array, and the weights and biases are the
  same whole arrays at every point. The 32 blocks of 1024 columns tile the output array — column `n` lies in block
  `n / 1024` — and every point writes its block back, so the array ends holding `scoresT` of the arrays the region
  finds.
-/
import proofs.«155692_g8263517077508_cont_9to1_m_1080_12_alg».proof.Proof.IdealRegion
import proofs.«155692_g8263517077508_cont_9to1_m_1080_12_alg».proof.Proof.IdealTile
import proofs.«155692_g8263517077508_cont_9to1_m_1080_12_alg».proof.Proof.IdealBlocks
import Idealize.ShloMosaic.Lib.Pipeline.Value

noncomputable section

namespace Cert.KernelIdeal.Array

open Idealize.ShloMosaic Idealize.ShloMosaic.TcCoe Idealize.ShloMosaic.ValueIdx Idealize.SL.Sem
open Cert.KernelIdeal Cert.KernelIdeal.Gen Cert.KernelIdeal.Body Cert.KernelIdeal.Region
open Idealize.ShloMosaic.Pipeline (Dat)

variable (m : (ℓ : Loc nD τ sig) → Buf (Elt Ideal) ℓ)

/-- What point `t` writes back is block `t` of the array of scores: entry `(g, q)` of the output buffer is score `g`
    of token `1024 t + q`, and entry `(g, q)` of block `t` sits at column `1024 t + q` of the array. -/
theorem flushed_eq (c : Dev nD) (t : Fin cfg0.N) :
    (dats (F := Ideal) m 0 c).flushed 6 t
      = ((cfg0.win 6).blk t).view.read (Elt Ideal)
          (scoresT (V m c main_arg0) (V m c main_arg1) (V m c main_v0) (V m c main_v1) (V m c main_v2)) := by
  show (cfg0.win 6).cut (grid0.coords t) ((dats m 0 c).after 6 t) = _
  rw [after_6, iblk2_eq m c t, iblk3_eq m c t, iblk4_eq m c t, iblk5_eq m c t]
  refine funext fun (j : S64x1024.Idx) => ?_
  obtain ⟨g, q, rfl⟩ : ∃ (g : Fin 64) (q : Fin 1024), j = ix2 g q := ⟨j 0, j 1, eq_ix2 j⟩
  show tile (iblk m c 0 t) (iblk m c 1 t) (V m c main_arg1) (V m c main_v0) (V m c main_v1) (V m c main_v2) (ix2 g q)
    = scoresT (V m c main_arg0) (V m c main_arg1) (V m c main_v0) (V m c main_v1) (V m c main_v2)
        (((cfg0.win 6).blk t).view.emb (ix2 g q))
  rw [blk6_emb t g q]
  exact tile_eq_scoresT (V m c main_arg0) (iblk m c 0 t) (iblk m c 1 t) (V m c main_arg1) (V m c main_v0) (V m c main_v1)
    (V m c main_v2) t.val (t_lt t) (iblk0_apply m c t) (iblk1_apply m c t) g q

/-- An index of the output array is in point `t`'s block iff each coordinate is in the block's range on its axis. -/
theorem mem_blk (t : Fin cfg0.N) (i : S64x32768.Idx) :
    i ∈ ((cfg0.win 6).blk t).view.set ↔ ∀ a : Fin 2, win0_6.index t a * S64x1024.size a ≤ (i a).val
      ∧ (i a).val < win0_6.index t a * S64x1024.size a + S64x1024.size a := by
  show i ∈ ((View.whole main_v3).slice (win0_6.rect t)).set ↔ _
  rw [View.set_slice_whole, Rect.mem_set_unit]
  exact Iff.rfl

/-- Every index of the output array is in the block of a point that writes back: column `n` in that of point
    `n / 1024`. -/
theorem cover (i : S64x32768.Idx) : ∃ t : Fin cfg0.N, (cfg0.win 6).flush t = true ∧ i ∈ ((cfg0.win 6).blk t).view.set := by
  have hi0 : (i 0).val < 64 := (i 0).isLt
  have hi1 : (i 1).val < 32768 := (i 1).isLt
  obtain ⟨t, ht⟩ : ∃ t : Fin cfg0.N, t.val = (i 1).val / 1024 :=
    ⟨⟨(i 1).val / 1024, lt_of_lt_of_eq (by omega : (i 1).val / 1024 < 32) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 64 ≤ (i 0).val ∧ (i 0).val < win0_6.index t (0 : Fin 2) * 64 + 64
    omega
  | ⟨1, _⟩ =>
    show win0_6.index t (1 : Fin 2) * 1024 ≤ (i 1).val ∧ (i 1).val < win0_6.index t (1 : Fin 2) * 1024 + 1024
    omega

/-- The output array after the run is the array of scores of the arrays the region finds. -/
theorem final (c : Dev nD) :
    (dats (F := Ideal) m 0 c).arrAt 6 cfg0.N
      = scoresT (V m c main_arg0) (V m c main_arg1) (V m c main_v0) (V m c main_v1) (V m c main_v2) :=
  (dats (F := Ideal) m 0 c).arrAt_eq_of_cover 6 _ (fun t _ => flushed_eq m c t) cover

end Cert.KernelIdeal.Array

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«155692_g8263517077508_cont_9to1_m_1080_12_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.RefScore.lean ====
/-
  The reference's result, read entry by entry at the extended reals: it is the router's score.

  The reference computes, over the whole array of 32768 tokens at once, `relu (x · W1 + b1) · W2 + b2`: a host product,
  a bias vector made a one-row matrix and repeated over the rows, the maximum with a repeated zero constant, a second
  host product and a second bias. Each of these is read row by row: at the extended reals a host product is the plain
  sum of products, and the maximum with the zero constant is the rectifier. Entry `(i, j)` of the result is therefore
  score `j` of token `i`, by the definitions of `hidden` and `score` alone; no law of arithmetic is used.
-/
import proofs.«155692_g8263517077508_cont_9to1_m_1080_12_alg».proof.Proof.Gen.ReferenceIdeal.Read
import proofs.«155692_g8263517077508_cont_9to1_m_1080_12_alg».proof.Proof.RouterSpec
import proofs.«155692_g8263517077508_cont_9to1_m_1080_12_alg».proof.Proof.LibHostRows

noncomputable section

namespace Cert.ReferenceIdeal.Score

open Idealize.ShloMosaic Idealize.ShloMosaic.ValueIdx Cert.Router Cert.ReferenceIdeal Cert.ReferenceIdeal.Gen
  Cert.ReferenceIdeal.Read

/-- The first product contracts the features' columns against the weights' rows, with no batch axis. -/
theorem plain_first : Cert.PlainDot.IsPlain dot_S32768x4096_S4096x512_S32768x512_1_0_0_1_n_n := ⟨rfl, rfl, rfl, rfl, rfl, rfl⟩

/-- So does the second. -/
theorem plain_second : Cert.PlainDot.IsPlain dot_S32768x512_S512x64_S32768x64_1_0_0_1_n_n := ⟨rfl, rfl, rfl, rfl, rfl, rfl⟩

/-- The hidden layer of the whole array: entry `(i, k)` of the rectified first layer is `hidden` of token `i`'s
    features, at `k`. Row `i` of `x · W1` is `∑ l, x (i, l) · W1 (l, ·)`; the bias vector is added to every row; the
    maximum with zero is the rectifier. -/
theorem hidden_rows (x0 : (⟨S32768x4096, .f32⟩ : BufTy).Contents (Elt Ideal)) (x1 : (⟨S4096x512, .f32⟩ : BufTy).Contents (Elt Ideal))
    (x2 : (⟨S512, .f32⟩ : BufTy).Contents (Elt Ideal)) (i : Fin 32768) (k : Fin 512) :
    val_main_v4 (F := Ideal) x0 x1 x2 (ix2 i k)
      = hidden (fun l => x0 (ix2 i l)) (fun l k => x1 (ix2 l k)) (fun k => x2 (ix1 k)) k := by
  -- the product, row by row
  have h0 : ∀ p q, val_main_v0 (F := Ideal) x0 x1 (ix2 p q) = ∑ l : Fin 4096, x0 (ix2 p l) * x1 (ix2 l q) :=
    Cert.HostRows.dot_rows _ plain_first none x0 x1 (fun p l => x0 (ix2 p l)) (fun _ _ => rfl)
  -- plus the bias vector
  have h3 : ∀ p q, val_main_v3 (F := Ideal) x0 x1 x2 (ix2 p q) = (∑ l : Fin 4096, x0 (ix2 p l) * x1 (ix2 l q)) + x2 (ix1 q) :=
    Cert.HostRows.bias_rows _ x2 bcast_S512_S1x512_1 bcast_S1x512_S32768x512_0_1 _ h0
  -- and the rectifier: the definition of `hidden`
  exact Cert.HostRows.relu_rows _ bcast_S_S32768x512 _ h3 i k

/-- The reference's result at `(i, j)` is score `j` of token `i`: row `i` of `hidden · W2` is
    `∑ k, hidden (i, k) · W2 (k, ·)`, and the second bias vector is added to every row. -/
theorem val_eq_score (x0 : (⟨S32768x4096, .f32⟩ : BufTy).Contents (Elt Ideal)) (x1 : (⟨S4096x512, .f32⟩ : BufTy).Contents (Elt Ideal))
    (x2 : (⟨S512, .f32⟩ : BufTy).Contents (Elt Ideal)) (x3 : (⟨S512x64, .f32⟩ : BufTy).Contents (Elt Ideal))
    (x4 : (⟨S64, .f32⟩ : BufTy).Contents (Elt Ideal)) (i : Fin 32768) (j : Fin 64) :
    val_main_v8 (F := Ideal) x0 x1 x2 x3 x4 (ix2 i j)
      = score (fun l => x0 (ix2 i l)) (fun l k => x1 (ix2 l k)) (fun k => x2 (ix1 k)) (fun k j' => x3 (ix2 k j'))
          (fun j' => x4 (ix1 j')) j := by
  -- the second product over the hidden layer, whose rows `hidden_rows` names
  have h5 : ∀ p q, val_main_v5 (F := Ideal) x0 x1 x2 x3 (ix2 p q)
      = ∑ k : Fin 512, hidden (fun l => x0 (ix2 p l)) (fun l k => x1 (ix2 l k)) (fun k => x2 (ix1 k)) k * x3 (ix2 k q) :=
    Cert.HostRows.dot_rows _ plain_second none (val_main_v4 (F := Ideal) x0 x1 x2) x3 _ (hidden_rows x0 x1 x2)
  -- plus the second bias vector: the definition of `score`
  exact Cert.HostRows.bias_rows _ x4 bcast_S64_S1x64_1 bcast_S1x64_S32768x64_0_1 _ h5 i j

end Cert.ReferenceIdeal.Score

end
-- ==== Proof.Bridge.lean ====
/-
  The two programs compute one function.

  Entry `(i, j)` of the kernel's result is, through the closing transposition, entry `(j, i)` of the 64 × 32768 array
  the write-backs left, which is score `j` of token `i` computed from the arrays the region found: the tokens and the
  first weight matrix as launched, the two biases as one-row matrices and the second weight matrix transposed. Read
  back through those three re-layings it is `Cert.Router.score` of the launch arrays, which is also what the
  reference's eleven host lines compute at `(i, j)`.
-/
import proofs.«155692_g8263517077508_cont_9to1_m_1080_12_alg».proof.Proof.IdealHost
import proofs.«155692_g8263517077508_cont_9to1_m_1080_12_alg».proof.Proof.IdealArray
import proofs.«155692_g8263517077508_cont_9to1_m_1080_12_alg».proof.Proof.RefScore

set_option maxRecDepth 16384

noncomputable section

namespace Cert.Bridge

open Idealize.ShloMosaic Idealize.ShloMosaic.TcCoe Idealize.ShloMosaic.ValueIdx Idealize.SL.Sem Cert.Router
open Cert.KernelIdeal (nD τ sig main_arg0 main_arg1 main_arg2 main_arg3 main_arg4 main_v0 main_v1 main_v2 main_v4)
open Cert.KernelIdeal.Region Cert.KernelIdeal.Run

variable (m : (ℓ : Loc nD τ sig) → Buf (Elt Ideal) ℓ)

/-- The kernel's result at `(i, j)` is score `j` of token `i`, from the launch arrays. -/
theorem kernel_score (c : Dev nD) (i : Fin 32768) (j : Fin 64) :
    Wend m c (Proc.devRef .tc main_v4) (ix2 i j)
      = score (fun l => m ((c : Thread nD τ).loc main_arg0) (ix2 i l)) (fun l k => m ((c : Thread nD τ).loc main_arg1) (ix2 l k))
          (fun k => m ((c : Thread nD τ).loc main_arg2) (ix1 k)) (fun k j' => m ((c : Thread nD τ).loc main_arg3) (ix2 k j'))
          (fun j' => m ((c : Thread nD τ).loc main_arg4) (ix1 j')) j := by
  rw [Cert.KernelIdeal.Host.result_apply, Cert.KernelIdeal.Array.final]
  show score (fun l => V m c main_arg0 (ix2 i l)) (fun l k => V m c main_arg1 (ix2 l k)) (fun k => V m c main_v0 (ix2 (0 : Fin 1) k))
      (fun k j' => V m c main_v1 (ix2 j' k)) (fun j' => V m c main_v2 (ix2 (0 : Fin 1) j')) j = _
  have e0 : (fun l => V m c main_arg0 (ix2 i l)) = fun l => m ((c : Thread nD τ).loc main_arg0) (ix2 i l) :=
    funext fun l => by rw [V_arg m c main_arg0 (by decide)]
  have e1 : (fun l k => V m c main_arg1 (ix2 l k)) = fun l k => m ((c : Thread nD τ).loc main_arg1) (ix2 l k) :=
    funext fun l => funext fun k => by rw [V_arg m c main_arg1 (by decide)]
  have e2 : (fun k => V m c main_v0 (ix2 (0 : Fin 1) k)) = fun k => m ((c : Thread nD τ).loc main_arg2) (ix1 k) :=
    funext fun k => Cert.KernelIdeal.Host.V_b1 m c k
  have e3 : (fun k j' => V m c main_v1 (ix2 j' k)) = fun k j' => m ((c : Thread nD τ).loc main_arg3) (ix2 k j') :=
    funext fun k => funext fun j' => Cert.KernelIdeal.Host.V_w2t m c j' k
  have e4 : (fun j' => V m c main_v2 (ix2 (0 : Fin 1) j')) = fun j' => m ((c : Thread nD τ).loc main_arg4) (ix1 j') :=
    funext fun j' => Cert.KernelIdeal.Host.V_b2 m c j'
  rw [e0, e1, e2, e3, e4]

/-- The kernel's result is the reference's, as arrays. -/
theorem result_eq (c : Dev nD) :
    Wend m c (Proc.devRef .tc main_v4)
      = Cert.ReferenceIdeal.Read.val_main_v8 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext idx
  obtain ⟨i, j, rfl⟩ : ∃ (i : Fin 32768) (j : Fin 64), idx = ix2 i j := ⟨idx 0, idx 1, eq_ix2 idx⟩
  rw [kernel_score, Cert.ReferenceIdeal.Score.val_eq_score]

end Cert.Bridge

end
-- ==== Proof.lean ====
/-
  Every claim of the certificate, assembled.

  The kernel computes, for each of 32768 tokens, the scores `relu (x · W1 + b1) · W2 + b2` of a two-layer router,
  512 tokens per block, two blocks per grid point; the reference computes the same in one piece. On the extended
  reals both are the function `Cert.Router.score` of a token's feature row, so the two results agree entry by entry:
  the kernel's entry `(i, j)` is traced through the closing transposition, the write-backs of the 32 grid points and
  the body's two stores (the modules `IdealHost`, `IdealArray`, `KernelTile`), the reference's through its eleven host
  lines (`RefScore`). No law of arithmetic beyond re-indexing is used, so the finiteness of the inputs is never opened.
  The three frames are the runs themselves with the results forgotten; the idealization changed no operation.
-/
import proofs.«155692_g8263517077508_cont_9to1_m_1080_12_alg».proof.Defs
import proofs.«155692_g8263517077508_cont_9to1_m_1080_12_alg».proof.Proof.Gen.Kernel
import proofs.«155692_g8263517077508_cont_9to1_m_1080_12_alg».proof.Proof.Gen.Kernel.Skeleton
import proofs.«155692_g8263517077508_cont_9to1_m_1080_12_alg».proof.Proof.Gen.Kernel.Launch
import proofs.«155692_g8263517077508_cont_9to1_m_1080_12_alg».proof.Proof.Gen.Kernel.Points
import proofs.«155692_g8263517077508_cont_9to1_m_1080_12_alg».proof.Proof.Gen.KernelIdeal
import proofs.«155692_g8263517077508_cont_9to1_m_1080_12_alg».proof.Proof.Gen.KernelIdeal.Skeleton
import proofs.«155692_g8263517077508_cont_9to1_m_1080_12_alg».proof.Proof.Gen.KernelIdeal.Launch
import proofs.«155692_g8263517077508_cont_9to1_m_1080_12_alg».proof.Proof.Gen.KernelIdeal.Points
import proofs.«155692_g8263517077508_cont_9to1_m_1080_12_alg».proof.Proof.Gen.ReferenceIdeal
import proofs.«155692_g8263517077508_cont_9to1_m_1080_12_alg».proof.Proof.Gen.ReferenceIdeal.Run
import proofs.«155692_g8263517077508_cont_9to1_m_1080_12_alg».proof.Proof.Gen.ReferenceIdeal.Read
import proofs.«155692_g8263517077508_cont_9to1_m_1080_12_alg».proof.Proof.Gen.Pre_finite_inputs
import proofs.«155692_g8263517077508_cont_9to1_m_1080_12_alg».proof.Proof.BitsRun
import proofs.«155692_g8263517077508_cont_9to1_m_1080_12_alg».proof.Proof.IdealRun
import proofs.«155692_g8263517077508_cont_9to1_m_1080_12_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Run.frame m ρ

/-- So does its reading on the extended reals. -/
theorem frame_kernel_ideal : Cert.frame_KernelIdeal := fun m ρ _ => Cert.KernelIdeal.Run.frame m ρ

/-- The reference is eleven host lines: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the arguments, both programs run and end with equal results: the
    kernel's run ends with its result at the closing transposition's value of what the write-backs left, the
    reference's at its eleven lines' composed term, and the two are one array (`Cert.Bridge.result_eq`). -/
theorem algebraic : Cert.algebraic_KernelIdeal_ReferenceIdeal := by
  intro m ρ m' ρ' _ hagree
  refine ⟨fun c => Cert.KernelIdeal.Run.Wend m c (Proc.devRef .tc Cert.KernelIdeal.main_v4), Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1, (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
